-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S262144 : Shape := ⟨1, ![262144]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8192x512 .f32) (main_arg1 : IVec S262144 32) (main_arg2 : IVec S262144 32) (main_arg3 : FVec F S512x256 .f32) (main_arg4 : FVec F S256 .f32) (main_arg5 : FVec F S256x64 .f32) (main_arg6 : FVec F S64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg6 main_v13 main_v16
-- ==== Kernel.lean ====
abbrev S8192x512 : Shape := ⟨2, ![8192, 512]⟩
abbrev S262144 : Shape := ⟨1, ![262144]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩
abbrev S8192 : Shape := ⟨1, ![8192]⟩
abbrev S262144x1 : Shape := ⟨2, ![262144, 1]⟩
abbrev S8192x1 : Shape := ⟨2, ![8192, 1]⟩
abbrev S8192x256 : Shape := ⟨2, ![8192, 256]⟩
abbrev S1024x512 : Shape := ⟨2, ![1024, 512]⟩
abbrev S1024x1 : Shape := ⟨2, ![1024, 1]⟩
abbrev S1024x256 : Shape := ⟨2, ![1024, 256]⟩
abbrev S262144x256 : Shape := ⟨2, ![262144, 256]⟩
abbrev S1x256 : Shape := ⟨2, ![1, 256]⟩
abbrev S8192x64 : Shape := ⟨2, ![8192, 64]⟩
abbrev S1024x64 : Shape := ⟨2, ![1024, 64]⟩
abbrev S262144x64 : Shape := ⟨2, ![262144, 64]⟩
abbrev S1x64 : Shape := ⟨2, ![1, 64]⟩
abbrev S8192x8192 : Shape := ⟨2, ![8192, 8192]⟩
abbrev S2048x64 : Shape := ⟨2, ![2048, 64]⟩
abbrev S2048x1 : Shape := ⟨2, ![2048, 1]⟩
abbrev S2048x1024 : Shape := ⟨2, ![2048, 1024]⟩
abbrev S64x1024 : Shape := ⟨2, ![64, 1024]⟩

abbrev nBuf : Space → Nat
  | .hbm => 62
  | .vmem => 28
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S512x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S8192, .f32⟩
  | .hbm, ⟨11, _⟩ => ⟨S262144x1, .i32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S262144x1, .i32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S8192x1, .f32⟩
  | .hbm, ⟨31, _⟩ => ⟨S8192x256, .f32⟩
  | .hbm, ⟨32, _⟩ => ⟨S_, .i32⟩
  | .hbm, ⟨33, _⟩ => ⟨S262144, .i32⟩
  | .hbm, ⟨34, _⟩ => ⟨S262144, .i1⟩
  | .hbm, ⟨35, _⟩ => ⟨S_, .i32⟩
  | .hbm, ⟨36, _⟩ => ⟨S262144, .i32⟩
  | .hbm, ⟨37, _⟩ => ⟨S262144, .i32⟩
  | .hbm, ⟨38, _⟩ => ⟨S262144, .i32⟩
  | .hbm, ⟨39, _⟩ => ⟨S262144x1, .i32⟩
  | .hbm, ⟨40, _⟩ => ⟨S262144x256, .f32⟩
  | .hbm, ⟨41, _⟩ => ⟨S_, .f32⟩
  | .hbm, ⟨42, _⟩ => ⟨S8192x256, .f32⟩
  | .hbm, ⟨43, _⟩ => ⟨S262144x1, .i32⟩
  | .hbm, ⟨44, _⟩ => ⟨S8192x256, .f32⟩
  | .hbm, ⟨45, _⟩ => ⟨S1x256, .f32⟩
  | .hbm, ⟨46, _⟩ => ⟨S8192x64, .f32⟩
  | .hbm, ⟨47, _⟩ => ⟨S_, .i32⟩
  | .hbm, ⟨48, _⟩ => ⟨S262144, .i32⟩
  | .hbm, ⟨49, _⟩ => ⟨S262144, .i1⟩
  | .hbm, ⟨50, _⟩ => ⟨S_, .i32⟩
  | .hbm, ⟨51, _⟩ => ⟨S262144, .i32⟩
  | .hbm, ⟨52, _⟩ => ⟨S262144, .i32⟩
  | .hbm, ⟨53, _⟩ => ⟨S262144, .i32⟩
  | .hbm, ⟨54, _⟩ => ⟨S262144x1, .i32⟩
  | .hbm, ⟨55, _⟩ => ⟨S262144x64, .f32⟩
  | .hbm, ⟨56, _⟩ => ⟨S_, .f32⟩
  | .hbm, ⟨57, _⟩ => ⟨S8192x64, .f32⟩
  | .hbm, ⟨58, _⟩ => ⟨S262144x1, .i32⟩
  | .hbm, ⟨59, _⟩ => ⟨S8192x64, .f32⟩
  | .hbm, ⟨60, _⟩ => ⟨S1x64, .f32⟩
  | .hbm, ⟨61, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1024x1, .f32⟩
  | .local _ .vmem, ⟨4, _⟩ => ⟨S1024x1, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x1, .f32⟩
  | .local _ .vmem, ⟨10, _⟩ => ⟨S1024x1, .f32⟩
  | .local _ .vmem, ⟨11, _⟩ => ⟨S1x256, .f32⟩
  | .local _ .vmem, ⟨12, _⟩ => ⟨S256x64, .f32⟩
  | .local _ .vmem, ⟨13, _⟩ => ⟨S1024x1, .f32⟩
  | .local _ .vmem, ⟨14, _⟩ => ⟨S1024x1, .f32⟩
  | .local _ .vmem, ⟨15, _⟩ => ⟨S1024x64, .f32⟩
  | .local _ .vmem, ⟨16, _⟩ => ⟨S1024x64, .f32⟩
  | .local _ .vmem, ⟨17, _⟩ => ⟨S2048x64, .f32⟩
  | .local _ .vmem, ⟨18, _⟩ => ⟨S2048x64, .f32⟩
  | .local _ .vmem, ⟨19, _⟩ => ⟨S1024x64, .f32⟩
  | .local _ .vmem, ⟨20, _⟩ => ⟨S1024x64, .f32⟩
  | .local _ .vmem, ⟨21, _⟩ => ⟨S2048x1, .f32⟩
  | .local _ .vmem, ⟨22, _⟩ => ⟨S2048x1, .f32⟩
  | .local _ .vmem, ⟨23, _⟩ => ⟨S1024x1, .f32⟩
  | .local _ .vmem, ⟨24, _⟩ => ⟨S1024x1, .f32⟩
  | .local _ .vmem, ⟨25, _⟩ => ⟨S1x64, .f32⟩
  | .local _ .vmem, ⟨26, _⟩ => ⟨S2048x1024, .f32⟩
  | .local _ .vmem, ⟨27, _⟩ => ⟨S2048x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S2048x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  shapeCasts_S8192_S8192x1 : S8192.ShapeCasts S8192x1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  bcast_S_S8192x256 : S_.BroadcastsInDim S8192x256 (![] : Fin 0 → Fin S8192x256.rank)
  shapeCasts_S256_S1x256 : S256.ShapeCasts S1x256
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x64_S256x64_0_0 : ∀ a, (![0, 0] : Fin 2 → Nat) a + S256x64.size a ≤ S256x64.size a
  h_S256x64 : 0 < S256x64.numel
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  bcast_S_S8192x64 : S_.BroadcastsInDim S8192x64 (![] : Fin 0 → Fin S8192x64.rank)
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  shapeCasts_S1024x64_S1024x64 : S1024x64.ShapeCasts S1024x64
  broadcasts_S1x64_S1024x64 : S1x64.Broadcasts S1024x64
  transposes_S1024x64_p1_0_S64x1024 : S1024x64.Transposes [1, 0] S64x1024
  inb_S2048x1024_S2048x1024_0_0 : ∀ a, (![0, 0] : Fin 2 → Nat) a + S2048x1024.size a ≤ S2048x1024.size a
  h_S2048x1024 : 0 < S2048x1024.numel
  scatter_S8192_S262144x1_S262144_n_0_0_1_wf : ScatterDims.WF S8192 S262144x1 S262144 [] [0] [0] 1
  dot_S1024x512_S512x256_S1024x256_1_0_0_1_n_n_wf : DotDims.WF S1024x512 S512x256 S1024x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S1024x256_S256x64_S1024x64_1_0_0_1_n_n_wf : DotDims.WF S1024x256 S256x64 S1024x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S2048x64_S64x1024_S2048x1024_1_0_0_1_n_n_wf : DotDims.WF S2048x64 S64x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x64.size a ≤ S8192x64.size a
  hwx1_5 : ∀ i : grid1.Coords, EltTy.bits .f32 = 32 ∨ (Rect.block (s := S8192x64) S1024x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S8192x64.size a
  hwx2_0 : ∀ i : grid2.Coords, EltTy.bits .f32 = 32 ∨ (Rect.block (s := S8192x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S8192x64.size a
  hwx2_1 : ∀ i : grid2.Coords, EltTy.bits .f32 = 32 ∨ (Rect.block (s := S8192x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S8192x1.size a
  hwx2_3 : ∀ i : grid2.Coords, EltTy.bits .f32 = 32 ∨ (Rect.block (s := S8192x1) S1024x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x1024.size a ≤ S8192x8192.size a
  hwx2_5 : ∀ i : grid2.Coords, EltTy.bits .f32 = 32 ∨ (Rect.block (s := S8192x8192) S2048x1024.size (cc2_transform_5 i) (hinb2_5 i)).WholeWords (EltTy.packing .f32)

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1024x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S2048x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8192x512 : Shape := ⟨2, ![8192, 512]⟩
abbrev S262144 : Shape := ⟨1, ![262144]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩
abbrev S8192 : Shape := ⟨1, ![8192]⟩
abbrev S262144x1 : Shape := ⟨2, ![262144, 1]⟩
abbrev S8192x256 : Shape := ⟨2, ![8192, 256]⟩
abbrev S8192x1 : Shape := ⟨2, ![8192, 1]⟩
abbrev S262144x256 : Shape := ⟨2, ![262144, 256]⟩
abbrev S1x256 : Shape := ⟨2, ![1, 256]⟩
abbrev S8192x64 : Shape := ⟨2, ![8192, 64]⟩
abbrev S262144x64 : Shape := ⟨2, ![262144, 64]⟩
abbrev S1x64 : Shape := ⟨2, ![1, 64]⟩
abbrev S64x8192 : Shape := ⟨2, ![64, 8192]⟩
abbrev S8192x8192 : Shape := ⟨2, ![8192, 8192]⟩

abbrev nBuf : Space → Nat
  | .hbm => 88
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S512x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S8192, .f32⟩
  | .hbm, ⟨11, _⟩ => ⟨S262144x1, .i32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S262144x1, .i32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x256, .f32⟩
  | .hbm, ⟨30, _⟩ => ⟨S8192x1, .f32⟩
  | .hbm, ⟨31, _⟩ => ⟨S8192x256, .f32⟩
  | .hbm, ⟨32, _⟩ => ⟨S8192x256, .f32⟩
  | .hbm, ⟨33, _⟩ => ⟨S_, .i32⟩
  | .hbm, ⟨34, _⟩ => ⟨S262144, .i32⟩
  | .hbm, ⟨35, _⟩ => ⟨S262144, .i1⟩
  | .hbm, ⟨36, _⟩ => ⟨S_, .i32⟩
  | .hbm, ⟨37, _⟩ => ⟨S262144, .i32⟩
  | .hbm, ⟨38, _⟩ => ⟨S262144, .i32⟩
  | .hbm, ⟨39, _⟩ => ⟨S262144, .i32⟩
  | .hbm, ⟨40, _⟩ => ⟨S262144x1, .i32⟩
  | .hbm, ⟨41, _⟩ => ⟨S262144x256, .f32⟩
  | .hbm, ⟨42, _⟩ => ⟨S_, .f32⟩
  | .hbm, ⟨43, _⟩ => ⟨S8192x256, .f32⟩
  | .hbm, ⟨44, _⟩ => ⟨S262144x1, .i32⟩
  | .hbm, ⟨45, _⟩ => ⟨S8192x256, .f32⟩
  | .hbm, ⟨46, _⟩ => ⟨S8192x1, .f32⟩
  | .hbm, ⟨47, _⟩ => ⟨S8192x256, .f32⟩
  | .hbm, ⟨48, _⟩ => ⟨S8192x256, .f32⟩
  | .hbm, ⟨49, _⟩ => ⟨S1x256, .f32⟩
  | .hbm, ⟨50, _⟩ => ⟨S8192x256, .f32⟩
  | .hbm, ⟨51, _⟩ => ⟨S8192x256, .f32⟩
  | .hbm, ⟨52, _⟩ => ⟨S_, .f32⟩
  | .hbm, ⟨53, _⟩ => ⟨S8192x256, .f32⟩
  | .hbm, ⟨54, _⟩ => ⟨S8192x256, .f32⟩
  | .hbm, ⟨55, _⟩ => ⟨S8192x64, .f32⟩
  | .hbm, ⟨56, _⟩ => ⟨S8192x1, .f32⟩
  | .hbm, ⟨57, _⟩ => ⟨S8192x64, .f32⟩
  | .hbm, ⟨58, _⟩ => ⟨S8192x64, .f32⟩
  | .hbm, ⟨59, _⟩ => ⟨S_, .i32⟩
  | .hbm, ⟨60, _⟩ => ⟨S262144, .i32⟩
  | .hbm, ⟨61, _⟩ => ⟨S262144, .i1⟩
  | .hbm, ⟨62, _⟩ => ⟨S_, .i32⟩
  | .hbm, ⟨63, _⟩ => ⟨S262144, .i32⟩
  | .hbm, ⟨64, _⟩ => ⟨S262144, .i32⟩
  | .hbm, ⟨65, _⟩ => ⟨S262144, .i32⟩
  | .hbm, ⟨66, _⟩ => ⟨S262144x1, .i32⟩
  | .hbm, ⟨67, _⟩ => ⟨S262144x64, .f32⟩
  | .hbm, ⟨68, _⟩ => ⟨S_, .f32⟩
  | .hbm, ⟨69, _⟩ => ⟨S8192x64, .f32⟩
  | .hbm, ⟨70, _⟩ => ⟨S262144x1, .i32⟩
  | .hbm, ⟨71, _⟩ => ⟨S8192x64, .f32⟩
  | .hbm, ⟨72, _⟩ => ⟨S8192x1, .f32⟩
  | .hbm, ⟨73, _⟩ => ⟨S8192x64, .f32⟩
  | .hbm, ⟨74, _⟩ => ⟨S8192x64, .f32⟩
  | .hbm, ⟨75, _⟩ => ⟨S1x64, .f32⟩
  | .hbm, ⟨76, _⟩ => ⟨S8192x64, .f32⟩
  | .hbm, ⟨77, _⟩ => ⟨S8192x64, .f32⟩
  | .hbm, ⟨78, _⟩ => ⟨S64x8192, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S_, .f32⟩
  | .hbm, ⟨86, _⟩ => ⟨S8192x8192, .f32⟩
  | .hbm, ⟨87, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S8192x1_S8192x64_0_1 : S8192x1.BroadcastsInDim S8192x64 (![0, 1] : Fin 2 → Fin S8192x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  scatter_S8192_S262144x1_S262144_n_0_0_1_wf : ScatterDims.WF S8192 S262144x1 S262144 [] [0] [0] 1
  dot_S8192x512_S512x256_S8192x256_1_0_0_1_n_n_wf : DotDims.WF S8192x512 S512x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x64_S8192x64_1_0_0_1_n_n_wf : DotDims.WF S8192x256 S256x64 S8192x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S8192x64_S64x8192_S8192x8192_1_0_0_1_n_n_wf : DotDims.WF S8192x64 S64x8192 S8192x8192 [1] [0] [0] [1] [] []

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.K.Dats.lean ====
/-
  The three pipelined calls' blocks, stored outputs and proof data, at the buffer contents a call is entered with.
-/
import proofs.«100454_j32100585570938_2_alg».proof.Proof.Gen.Kernel.Launch
import proofs.«100454_j32100585570938_2_alg».proof.Proof.Gen.Kernel.Skeleton
import proofs.«100454_j32100585570938_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! Three pipelined calls, each read at a parameter `V`: the contents of the TensorCore's buffers when the call is
    entered. For each call: the block of every window at a grid point, what the body's one store leaves in the output
    window's buffer as a function of the input blocks, and the pipeline's proof data (inputs left in place, the output
    at that function, nothing owed). Calls 0 and 1 are a row band of a matrix product scaled row by row; call 2 is an
    output tile of a Gram matrix under the logistic function, whose two row bands come from ONE array through two
    windows, each holding half of the array's share (likewise the normalisation column). -/

variable (V : (c : Dev nD) → (b : Ref sig .tc) → Buf (Elt F) ((c : Thread nD τ).loc b))

/-! ## Call 0: rows of `(x · W₁) ⊙ norm_out` -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x512 := Rect.unit (s := S1024x512) ![0, 0] S1024x512.size inb_S1024x512_S1024x512_0_0
abbrev r0_1 : Rect S512x256 := Rect.unit (s := S512x256) ![0, 0] S512x256.size inb_S512x256_S512x256_0_0
abbrev r0_2 : Rect S1024x1 := Rect.unit (s := S1024x1) ![0, 0] S1024x1.size inb_S1024x1_S1024x1_0_0
abbrev r0_3 : Rect S1024x256 := Rect.unit (s := S1024x256) ![0, 0] S1024x256.size inb_S1024x256_S1024x256_0_0

/-- The output band after the body: its one whole-buffer store of the scaled product of the input blocks. -/
def out0_3 (x0 : Vec F S1024x512 .f32) (x1 : Vec F S512x256 .f32) (x2 : Vec F S1024x1 .f32) : Vec F S1024x256 .f32 :=
  View.canon [⟨r0_3, k0_pay1 (View.ld x0 r0_0) (View.ld x1 r0_1) (View.ld x2 r0_2)⟩]

/-- Call 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Call 1: rows of `(relu(agg ⊙ norm_in + b₁) · W₂) ⊙ norm_out` -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x256 := Rect.unit (s := S1024x256) ![0, 0] S1024x256.size inb_S1024x256_S1024x256_0_0
abbrev r1_1 : Rect S1024x1 := Rect.unit (s := S1024x1) ![0, 0] S1024x1.size inb_S1024x1_S1024x1_0_0
abbrev r1_2 : Rect S1x256 := Rect.unit (s := S1x256) ![0, 0] S1x256.size inb_S1x256_S1x256_0_0
abbrev r1_3 : Rect S256x64 := Rect.unit (s := S256x64) ![0, 0] S256x64.size inb_S256x64_S256x64_0_0
abbrev r1_4 : Rect S1024x1 := Rect.unit (s := S1024x1) ![0, 0] S1024x1.size inb_S1024x1_S1024x1_0_0
abbrev r1_5 : Rect S1024x64 := Rect.unit (s := S1024x64) ![0, 0] S1024x64.size inb_S1024x64_S1024x64_0_0

def out1_5 (x0 : Vec F S1024x256 .f32) (x1 : Vec F S1024x1 .f32) (x2 : Vec F S1x256 .f32) (x3 : Vec F S256x64 .f32)
    (x4 : Vec F S1024x1 .f32) : Vec F S1024x64 .f32 :=
  View.canon [⟨r1_5, k1_pay1 (View.ld x0 r1_0) (View.ld x1 r1_1) (View.ld x2 r1_2) (View.ld x3 r1_3) (View.ld x4 r1_4)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-! ## Call 2: tiles of `logistic (z · zᵀ)`, `z = agg ⊙ norm_in + b₂` -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2048x64 := Rect.unit (s := S2048x64) ![0, 0] S2048x64.size inb_S2048x64_S2048x64_0_0
abbrev r2_1 : Rect S1024x64 := Rect.unit (s := S1024x64) ![0, 0] S1024x64.size inb_S1024x64_S1024x64_0_0
abbrev r2_2 : Rect S2048x1 := Rect.unit (s := S2048x1) ![0, 0] S2048x1.size inb_S2048x1_S2048x1_0_0
abbrev r2_3 : Rect S1024x1 := Rect.unit (s := S1024x1) ![0, 0] S1024x1.size inb_S1024x1_S1024x1_0_0
abbrev r2_4 : Rect S1x64 := Rect.unit (s := S1x64) ![0, 0] S1x64.size inb_S1x64_S1x64_0_0
abbrev r2_5 : Rect S2048x1024 := Rect.unit (s := S2048x1024) ![0, 0] S2048x1024.size inb_S2048x1024_S2048x1024_0_0

/-- The output tile after the body. The bias row is loaded twice (once for each band); both loads read the same block. -/
def out2_5 (x0 : Vec F S2048x64 .f32) (x1 : Vec F S1024x64 .f32) (x2 : Vec F S2048x1 .f32) (x3 : Vec F S1024x1 .f32)
    (x4 : Vec F S1x64 .f32) : Vec F S2048x1024 .f32 :=
  View.canon [⟨r2_5, k2_pay1 (View.ld x0 r2_0) (View.ld x2 r2_2) (View.ld x4 r2_4) (View.ld x1 r2_1) (View.ld x3 r2_3) (View.ld x4 r2_4)⟩]

/-- Call 2's proof data: windows 0 and 1 read one array, windows 2 and 3 another; each of the four holds half a share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

end Cert.Kernel.Hand

end
-- ==== Proof.K.Fold.lean ====
/-
  The buffer contents at each boundary of the program's six segments (three host stretches, three pipelined calls),
  folded from the launch memory: a host stretch applies its operations; a call replaces its one output array by what
  its write-backs leave and keeps every other buffer. No segment writes an argument, so each argument reads back to
  its launch contents through the fold.
-/
import proofs.«100454_j32100585570938_2_alg».proof.Proof.K.Dats
import proofs.«100454_j32100585570938_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- After the first host stretch (the degree factors as columns): call 0's entry. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At call 0's exit: its output array at what the write-backs leave, every other buffer as entered. -/
def W2 (c : Dev nD) : Valuation τ sig (Elt F) :=
  Function.update (W1 m c) main_v17 ((dat0 (V1 m) c).arrAt 3 cfg0.N)
abbrev V2 : (c : Dev nD) → (b : Ref sig .tc) → Buf (Elt F) ((c : Thread nD τ).loc b) := fun c b => W2 m c b
/-- After the second host stretch (the first aggregation along the edges): call 1's entry. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
def W4 (c : Dev nD) : Valuation τ sig (Elt F) :=
  Function.update (W3 m c) main_v29 ((dat1 (V3 m) c).arrAt 5 cfg1.N)
abbrev V4 : (c : Dev nD) → (b : Ref sig .tc) → Buf (Elt F) ((c : Thread nD τ).loc b) := fun c b => W4 m c b
/-- After the third host stretch (the second aggregation): call 2's entry. -/
abbrev W5 (c : Dev nD) : Valuation τ sig (Elt F) := StableHlo.after hostOps2 (W4 m c)
abbrev V5 : (c : Dev nD) → (b : Ref sig .tc) → Buf (Elt F) ((c : Thread nD τ).loc b) := fun c b => W5 m c b
def W6 (c : Dev nD) : Valuation τ sig (Elt F) :=
  Function.update (W5 m c) main_v41 ((dat2 (V5 m) c).arrAt 5 cfg2.N)
abbrev V6 : (c : Dev nD) → (b : Ref sig .tc) → Buf (Elt F) ((c : Thread nD τ).loc b) := fun c b => W6 m c b

/-! ## A call's exit contents: the output array replaced, the rest kept -/

theorem W2_out (c : Dev nD) : W2 m c (Proc.devRef .tc main_v17) = (dat0 (V1 m) c).arrAt 3 cfg0.N := by
  unfold W2; exact Function.update_self _ _ _
theorem W2_of_ne (c : Dev nD) (b : Ref sig .tc) (hb : b ≠ main_v17) : W2 m c (Proc.devRef .tc b) = W1 m c (Proc.devRef .tc b) := by
  unfold W2; exact Function.update_of_ne (StableHlo.devRef_ne_of_ne hb) _ _
theorem W4_out (c : Dev nD) : W4 m c (Proc.devRef .tc main_v29) = (dat1 (V3 m) c).arrAt 5 cfg1.N := by
  unfold W4; exact Function.update_self _ _ _
theorem W4_of_ne (c : Dev nD) (b : Ref sig .tc) (hb : b ≠ main_v29) : W4 m c (Proc.devRef .tc b) = W3 m c (Proc.devRef .tc b) := by
  unfold W4; exact Function.update_of_ne (StableHlo.devRef_ne_of_ne hb) _ _
theorem W6_out (c : Dev nD) : W6 m c (Proc.devRef .tc main_v41) = (dat2 (V5 m) c).arrAt 5 cfg2.N := by
  unfold W6; exact Function.update_self _ _ _
theorem W6_of_ne (c : Dev nD) (b : Ref sig .tc) (hb : b ≠ main_v41) : W6 m c (Proc.devRef .tc b) = W5 m c (Proc.devRef .tc b) := by
  unfold W6; exact Function.update_of_ne (StableHlo.devRef_ne_of_ne hb) _ _

/-- At call 0's exit each of its arrays holds what the pipeline leaves: the inputs as entered, the output its write-backs. -/
theorem hF0 (c : Dev nD) (w : Fin cfg0.W) : (dat0 (V1 m) c).arrAt w cfg0.N = V2 m c (Pipeline.arrRef spec0 w) := by
  match w with
  | ⟨0, _⟩ => exact (((dat0 (V1 m) c).arrAt_in 0 rfl _).trans (A_eq0 (V1 m) c 0)).trans (W2_of_ne m c _ (by decide)).symm
  | ⟨1, _⟩ => exact (((dat0 (V1 m) c).arrAt_in 1 rfl _).trans (A_eq0 (V1 m) c 1)).trans (W2_of_ne m c _ (by decide)).symm
  | ⟨2, _⟩ => exact (((dat0 (V1 m) c).arrAt_in 2 rfl _).trans (A_eq0 (V1 m) c 2)).trans (W2_of_ne m c _ (by decide)).symm
  | ⟨3, _⟩ => exact (W2_out m c).symm
theorem hrest0 (c : Dev nD) : ∀ b, b ∉ Finset.univ.image (Pipeline.arrRef spec0) → V2 m c b = V1 m c b :=
  fun b hb => W2_of_ne m c b fun e => hb (Finset.mem_image.mpr ⟨3, Finset.mem_univ _, e.symm⟩)

theorem hF1 (c : Dev nD) (w : Fin cfg1.W) : (dat1 (V3 m) c).arrAt w cfg1.N = V4 m c (Pipeline.arrRef spec1 w) := by
  match w with
  | ⟨0, _⟩ => exact (((dat1 (V3 m) c).arrAt_in 0 rfl _).trans (A_eq1 (V3 m) c 0)).trans (W4_of_ne m c _ (by decide)).symm
  | ⟨1, _⟩ => exact (((dat1 (V3 m) c).arrAt_in 1 rfl _).trans (A_eq1 (V3 m) c 1)).trans (W4_of_ne m c _ (by decide)).symm
  | ⟨2, _⟩ => exact (((dat1 (V3 m) c).arrAt_in 2 rfl _).trans (A_eq1 (V3 m) c 2)).trans (W4_of_ne m c _ (by decide)).symm
  | ⟨3, _⟩ => exact (((dat1 (V3 m) c).arrAt_in 3 rfl _).trans (A_eq1 (V3 m) c 3)).trans (W4_of_ne m c _ (by decide)).symm
  | ⟨4, _⟩ => exact (((dat1 (V3 m) c).arrAt_in 4 rfl _).trans (A_eq1 (V3 m) c 4)).trans (W4_of_ne m c _ (by decide)).symm
  | ⟨5, _⟩ => exact (W4_out m c).symm
theorem hrest1 (c : Dev nD) : ∀ b, b ∉ Finset.univ.image (Pipeline.arrRef spec1) → V4 m c b = V3 m c b :=
  fun b hb => W4_of_ne m c b fun e => hb (Finset.mem_image.mpr ⟨5, Finset.mem_univ _, e.symm⟩)

theorem hF2 (c : Dev nD) (w : Fin cfg2.W) : (dat2 (V5 m) c).arrAt w cfg2.N = V6 m c (Pipeline.arrRef spec2 w) := by
  match w with
  | ⟨0, _⟩ => exact (((dat2 (V5 m) c).arrAt_in 0 rfl _).trans (A_eq2 (V5 m) c 0)).trans (W6_of_ne m c _ (by decide)).symm
  | ⟨1, _⟩ => exact (((dat2 (V5 m) c).arrAt_in 1 rfl _).trans (A_eq2 (V5 m) c 1)).trans (W6_of_ne m c _ (by decide)).symm
  | ⟨2, _⟩ => exact (((dat2 (V5 m) c).arrAt_in 2 rfl _).trans (A_eq2 (V5 m) c 2)).trans (W6_of_ne m c _ (by decide)).symm
  | ⟨3, _⟩ => exact (((dat2 (V5 m) c).arrAt_in 3 rfl _).trans (A_eq2 (V5 m) c 3)).trans (W6_of_ne m c _ (by decide)).symm
  | ⟨4, _⟩ => exact (((dat2 (V5 m) c).arrAt_in 4 rfl _).trans (A_eq2 (V5 m) c 4)).trans (W6_of_ne m c _ (by decide)).symm
  | ⟨5, _⟩ => exact (W6_out m c).symm
theorem hrest2 (c : Dev nD) : ∀ b, b ∉ Finset.univ.image (Pipeline.arrRef spec2) → V6 m c b = V5 m c b :=
  fun b hb => W6_of_ne m c b fun e => hb (Finset.mem_image.mpr ⟨5, Finset.mem_univ _, e.symm⟩)

/-! ## A buffer no segment writes reads back to the launch memory -/

/-- A buffer written by no host stretch and by no call ends as launched. -/
theorem W6_kept (c : Dev nD) (b : Ref sig .tc) (h0 : b ∉ hostOps0_W) (h1 : b ∉ hostOps1_W) (h2 : b ∉ hostOps2_W)
    (n17 : b ≠ main_v17) (n29 : b ≠ main_v29) (n41 : b ≠ main_v41) :
    W6 m c (Proc.devRef .tc b) = m ((c : Thread nD τ).loc b) :=
  calc W6 m c (Proc.devRef .tc b)
    _ = W5 m c (Proc.devRef .tc b) := W6_of_ne m c b n41
    _ = W4 m c (Proc.devRef .tc b) := StableHlo.after_of_writes_sub hostOps2 _ hostOps2_writes h2
    _ = W3 m c (Proc.devRef .tc b) := W4_of_ne m c b n29
    _ = W2 m c (Proc.devRef .tc b) := StableHlo.after_of_writes_sub hostOps1 _ hostOps1_writes h1
    _ = W1 m c (Proc.devRef .tc b) := W2_of_ne m c b n17
    _ = W0 m c (Proc.devRef .tc b) := StableHlo.after_of_writes_sub hostOps0 _ hostOps0_writes h0
    _ = m ((c : Thread nD τ).loc b) := rfl

/-! ## The proof data family -/

/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Body0.lean ====
/-
  Call 0's body at a grid point: every input window's staging buffer holds its block, and the body's one store leaves
  the output band at the scaled product of the input blocks.
-/
import proofs.«100454_j32100585570938_2_alg».proof.Proof.K.Dats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- An input window's current staging buffer holds its block at every point, fetched there or not: a window that is
    not fetched at a point has the block index it had at the point before, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The one store covers the output band -/

theorem cover0_3 (p0 : Vec F S1024x256 .f32) (y : S1024x256.Idx) :
    ∃ pc ∈ ([⟨r0_3, p0⟩] : List (View.Piece (Elt F) S1024x256 .f32)), y ∈ pc.1.set :=
  View.cover_of_tiled [⟨r0_3, p0⟩] S1024x256.size (by rfl) y

/-! ## The body's triple -/

set_option maxHeartbeats 1000000 in
/-- The body on whole staging memrefs, the inputs at contents `x0 x1 x2` and the output at anything, runs to the
    continuation with the inputs as they were and the output at `out0_3 x0 x1 x2`: three loads, a load of the output
    whose value is not used, and one store of the whole band. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S1024x1 .f32) (harg3 : arg3.IsWhole) (arg4 : Memref sig .tc .vmem S1024x256 .f32) (harg4 : arg4.IsWhole)
    (x0 : Vec F S1024x512 .f32) (x1 : Vec F S512x256 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__scaled_matmul_kernel i arg1 harg1 arg2 harg2 arg3 harg3 arg4 harg4) K := by
  simp only [cc0__scaled_matmul_kernel_eq_skeleton]; unfold cc0__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg0.lean ====
/-
  Call 0 as a segment of the program's run: entered with every unscoped buffer at the fold's contents before it, left
  with them at the contents after it. Its arrays are taken out of the unscoped buffers at entry and put back at the exit;
  the generator register passes through the call's invariant; nothing is owed.
-/
import proofs.«100454_j32100585570938_2_alg».proof.Proof.K.Fold
import proofs.«100454_j32100585570938_2_alg».proof.Proof.K.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Body1.lean ====
/-
  Call 1's body at a grid point: every input window's staging buffer holds its block, and the body's one store leaves
  the output band at the scaled product of the rectified, biased, normalised input band with the weight block.
-/
import proofs.«100454_j32100585570938_2_alg».proof.Proof.K.Dats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- An input window's current staging buffer holds its block at every point, fetched there or not: a window that is
    not fetched at a point has the block index it had at the point before, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The one store covers the output block -/

theorem cover1_5 (p0 : Vec F S1024x64 .f32) (y : S1024x64.Idx) :
    ∃ pc ∈ ([⟨r1_5, p0⟩] : List (View.Piece (Elt F) S1024x64 .f32)), y ∈ pc.1.set :=
  View.cover_of_tiled [⟨r1_5, p0⟩] S1024x64.size (by rfl) y

/-! ## The body's triple -/

set_option maxHeartbeats 1000000 in
/-- The body on whole staging memrefs, the inputs at contents `x0 … x4` and the output at anything, runs to the
    continuation with the inputs as they were and the output at `out1_5 x0 … x4`: five loads, a load of the output
    whose value is not used, and one store of the whole band. -/
theorem sound_kernel1 (c : Dev nD) (E : Set ℕ) (i : grid1.Coords)
    (arg1 : Memref sig .tc .vmem S1024x256 .f32) (harg1 : arg1.IsWhole) (arg2 : Memref sig .tc .vmem S1024x1 .f32) (harg2 : arg2.IsWhole)
    (arg3 : Memref sig .tc .vmem S1x256 .f32) (harg3 : arg3.IsWhole) (arg4 : Memref sig .tc .vmem S256x64 .f32) (harg4 : arg4.IsWhole)
    (arg5 : Memref sig .tc .vmem S1024x1 .f32) (harg5 : arg5.IsWhole) (arg6 : Memref sig .tc .vmem S1024x64 .f32) (harg6 : arg6.IsWhole)
    (x0 : Vec F S1024x256 .f32) (x1 : Vec F S1024x1 .f32) (x2 : Vec F S1x256 .f32) (x3 : Vec F S256x64 .f32) (x4 : Vec F S1024x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__prologue_scaled_matmul_kernel i arg1 harg1 arg2 harg2 arg3 harg3 arg4 harg4 arg5 harg5 arg6 harg6) K := by
  simp only [cc1__prologue_scaled_matmul_kernel_eq_skeleton]; unfold cc1__prologue_scaled_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg1.lean ====
/-
  Call 1 as a segment of the program's run: entered with every unscoped buffer at the fold's contents before it, left
  with them at the contents after it. Its arrays are taken out of the unscoped buffers at entry and put back at the exit;
  the generator register passes through the call's invariant; nothing is owed.
-/
import proofs.«100454_j32100585570938_2_alg».proof.Proof.K.Fold
import proofs.«100454_j32100585570938_2_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Body2.lean ====
/-
  Call 2's body at a grid point: every input window's staging buffer holds its block, and the body's one store leaves
  the output tile at the logistic function of the product of the two biased, normalised row bands.
-/
import proofs.«100454_j32100585570938_2_alg».proof.Proof.K.Dats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- An input window's current staging buffer holds its block at every point, fetched there or not: a window that is
    not fetched at a point has the block index it had at the point before, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The one store covers the output block -/

theorem cover2_5 (p0 : Vec F S2048x1024 .f32) (y : S2048x1024.Idx) :
    ∃ pc ∈ ([⟨r2_5, p0⟩] : List (View.Piece (Elt F) S2048x1024 .f32)), y ∈ pc.1.set :=
  View.cover_of_tiled [⟨r2_5, p0⟩] S2048x1024.size (by rfl) y

/-! ## The body's triple -/

set_option maxHeartbeats 1000000 in
/-- The body on whole staging memrefs, the inputs at contents `x0 … x4` and the output at anything, runs to the
    continuation with the inputs as they were and the output at `out2_5 x0 … x4`: the bias row is loaded twice and
    both loads read the same block; the output is loaded once (its value is not used) and then stored whole. -/
theorem sound_kernel2 (c : Dev nD) (E : Set ℕ) (i : grid2.Coords)
    (arg2 : Memref sig .tc .vmem S2048x64 .f32) (harg2 : arg2.IsWhole) (arg3 : Memref sig .tc .vmem S1024x64 .f32) (harg3 : arg3.IsWhole)
    (arg4 : Memref sig .tc .vmem S2048x1 .f32) (harg4 : arg4.IsWhole) (arg5 : Memref sig .tc .vmem S1024x1 .f32) (harg5 : arg5.IsWhole)
    (arg6 : Memref sig .tc .vmem S1x64 .f32) (harg6 : arg6.IsWhole) (arg7 : Memref sig .tc .vmem S2048x1024 .f32) (harg7 : arg7.IsWhole)
    (x0 : Vec F S2048x64 .f32) (x1 : Vec F S1024x64 .f32) (x2 : Vec F S2048x1 .f32) (x3 : Vec F S1024x1 .f32) (x4 : Vec F S1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out2_5 x0 x1 x2 x3 x4)) -∗ K ⟨⟩))
      ⊢ wp frame (wpE (defs₀ (F := F)) Variants.none c none) E (cc2__decoder_kernel i arg2 harg2 arg3 harg3 arg4 harg4 arg5 harg5 arg6 harg6 arg7 harg7) K := by
  simp only [cc2__decoder_kernel_eq_skeleton]; unfold cc2__decoder_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Share2.lean ====
/-
  Call 2's arrays among the core's unscoped buffers. Two of its arrays are each read through two windows, so the
  buffer behind such an array, held whole at the full share, is dealt to its two windows as the left and the right
  half of that share; at the call's exit the two halves, holding the same contents, join back to the full share.
-/
import proofs.«100454_j32100585570938_2_alg».proof.Proof.K.Dats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four buffers behind the six windows -/

/-- The six windows' arrays are four buffers: the node features `z`'s source (windows 0 and 1), the normalisation
    column (windows 2 and 3), the bias row (window 4) and the output (window 5). -/
theorem arrImage2 : (Finset.univ.image (Pipeline.arrRef spec2) : Finset (Ref sig .tc)) = {main_v39, main_v16, main_v40, main_v41} := by decide

/-- None of them is a scoped buffer. -/
theorem arr_unscoped2 : ∀ w, (Pipeline.arrRef spec2 w).isScoped = false := winFacts₀2.arr_unscoped

/-- A core's unscoped buffers at contents `W` are the four buffers behind the windows' arrays at `W` and the rest. -/
theorem split2 (c : Dev nD) (W : (b : Ref sig .tc) → Buf (Elt F) ((c : Thread nD τ).loc b)) :
    (unscopedBufs c W : sProp 𝕄) = iprop((Pipeline.arrBufs spec2 c W : sProp 𝕄) ∗ Pipeline.unscopedRest spec2 c W) := by
  classical
  have hA : Finset.univ.image (Pipeline.arrRef spec2) ⊆ Finset.univ.filter fun b : Ref sig .tc => ¬ b.isScoped := fun b hb => by
    obtain ⟨w, -, rfl⟩ := Finset.mem_image.mp hb
    exact Finset.mem_filter.mpr ⟨Finset.mem_univ _, by simp [arr_unscoped2 w]⟩
  unfold unscopedBufs Pipeline.unscopedRest Pipeline.arrBufs
  rw [bigSep_sdiff_split hA]
  rfl

/-- The four buffers, one by one, each whole at the full share. -/
theorem arrBufs2_eq (c : Dev nD) (W : (b : Ref sig .tc) → Buf (Elt F) ((c : Thread nD τ).loc b)) :
    (Pipeline.arrBufs spec2 c W : sProp 𝕄)
      = iprop((((c : Thread nD τ).loc main_v39) ↦{fullShare} W main_v39) ∗ (((c : Thread nD τ).loc main_v16) ↦{fullShare} W main_v16)
          ∗ (((c : Thread nD τ).loc main_v40) ↦{fullShare} W main_v40) ∗ (((c : Thread nD τ).loc main_v41) ↦{fullShare} W main_v41)) := by
  unfold Pipeline.arrBufs
  rw [arrImage2]
  rw [bigSep_insert (by decide), bigSep_insert (by decide), bigSep_insert (by decide), bigSep_singleton]
  rfl

/-! ## Each window's array: a whole buffer at the window's share -/
/-- Window 0's array is all of `main_v39`, held at the left half of the full share. -/
theorem arr2_0 (c : Dev nD) (G : Buf (Elt F) ((cfg2.win 0).arr.view.loc (c : Thread nD τ))) :
    (((cfg2.win 0).arr.view.loc (c : Thread nD τ)) ↦[(cfg2.win 0).arr.view.set]{(dat2 V c).share 0} G : sProp 𝕄)
      = (((c : Thread nD τ).loc main_v39) ↦{fullShare.left} G) := by
  rw [(arr_whole2 0).set_eq_univ]
  rfl

/-- Window 1's array is all of `main_v39`, held at the right half of the full share. -/
theorem arr2_1 (c : Dev nD) (G : Buf (Elt F) ((cfg2.win 1).arr.view.loc (c : Thread nD τ))) :
    (((cfg2.win 1).arr.view.loc (c : Thread nD τ)) ↦[(cfg2.win 1).arr.view.set]{(dat2 V c).share 1} G : sProp 𝕄)
      = (((c : Thread nD τ).loc main_v39) ↦{fullShare.right} G) := by
  rw [(arr_whole2 1).set_eq_univ]
  rfl

/-- Window 2's array is all of `main_v16`, held at the left half of the full share. -/
theorem arr2_2 (c : Dev nD) (G : Buf (Elt F) ((cfg2.win 2).arr.view.loc (c : Thread nD τ))) :
    (((cfg2.win 2).arr.view.loc (c : Thread nD τ)) ↦[(cfg2.win 2).arr.view.set]{(dat2 V c).share 2} G : sProp 𝕄)
      = (((c : Thread nD τ).loc main_v16) ↦{fullShare.left} G) := by
  rw [(arr_whole2 2).set_eq_univ]
  rfl

/-- Window 3's array is all of `main_v16`, held at the right half of the full share. -/
theorem arr2_3 (c : Dev nD) (G : Buf (Elt F) ((cfg2.win 3).arr.view.loc (c : Thread nD τ))) :
    (((cfg2.win 3).arr.view.loc (c : Thread nD τ)) ↦[(cfg2.win 3).arr.view.set]{(dat2 V c).share 3} G : sProp 𝕄)
      = (((c : Thread nD τ).loc main_v16) ↦{fullShare.right} G) := by
  rw [(arr_whole2 3).set_eq_univ]
  rfl

/-- Window 4's array is all of `main_v40`, held at the full share. -/
theorem arr2_4 (c : Dev nD) (G : Buf (Elt F) ((cfg2.win 4).arr.view.loc (c : Thread nD τ))) :
    (((cfg2.win 4).arr.view.loc (c : Thread nD τ)) ↦[(cfg2.win 4).arr.view.set]{(dat2 V c).share 4} G : sProp 𝕄)
      = (((c : Thread nD τ).loc main_v40) ↦{fullShare} G) := by
  rw [(arr_whole2 4).set_eq_univ]
  rfl

/-- Window 5's array is all of `main_v41`, held at the full share. -/
theorem arr2_5 (c : Dev nD) (G : Buf (Elt F) ((cfg2.win 5).arr.view.loc (c : Thread nD τ))) :
    (((cfg2.win 5).arr.view.loc (c : Thread nD τ)) ↦[(cfg2.win 5).arr.view.set]{(dat2 V c).share 5} G : sProp 𝕄)
      = (((c : Thread nD τ).loc main_v41) ↦{fullShare} G) := by
  rw [(arr_whole2 5).set_eq_univ]
  rfl

/-- The call's arrays at contents `G`, window by window: the two shared buffers appear twice, once at each half. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_v39) ↦{fullShare.left} G 0) ∗ (((c : Thread nD τ).loc main_v39) ↦{fullShare.right} G 1)
          ∗ (((c : Thread nD τ).loc main_v16) ↦{fullShare.left} G 2) ∗ (((c : Thread nD τ).loc main_v16) ↦{fullShare.right} G 3)
          ∗ (((c : Thread nD τ).loc main_v40) ↦{fullShare} G 4) ∗ (((c : Thread nD τ).loc main_v41) ↦{fullShare} G 5)) := by
  unfold Dat.arrays
  rw [bigSep_W2]
  exact congrArg₂ BI.sep (arr2_0 V c (G 0)) (congrArg₂ BI.sep (arr2_1 V c (G 1)) (congrArg₂ BI.sep (arr2_2 V c (G 2))
    (congrArg₂ BI.sep (arr2_3 V c (G 3)) (congrArg₂ BI.sep (arr2_4 V c (G 4)) (arr2_5 V c (G 5))))))

/-! ## Entry and exit -/

/-- ENTRY: a core's unscoped buffers at contents `V c` are call 2's arrays at the contents the call is entered with — each
    shared buffer's full share split into its left half (the first window on it) and its right half (the second) —
    and the unscoped rest. -/
theorem arrays_of_unscopedBufs2 (c : Dev nD) :
    (unscopedBufs c (V c) : sProp 𝕄)
      ⊢ iprop((dat2 V c).arrays ((dat2 V c).arrAt · 0) ∗ Pipeline.unscopedRest spec2 c (V c)) := by
  rw [split2, arrBufs2_eq, arrays2_eq]
  refine BIClass.sep_mono ?_ .rfl
  refine (BIClass.sep_mono (pointsTo_share (PosShare.mem_left_op_right fullShare)).1
    (BIClass.sep_mono (pointsTo_share (PosShare.mem_left_op_right fullShare)).1 .rfl)).trans ?_
  iintro ⟨⟨Ha, Hb⟩, ⟨Hc, Hd⟩, He, Hf⟩
  isplitl [Ha]; · iexact Ha
  isplitl [Hb]; · iexact Hb
  isplitl [Hc]; · iexact Hc
  isplitl [Hd]; · iexact Hd
  isplitl [He]; · iexact He
  iexact Hf

/-- EXIT: call 2's arrays as the call leaves them and the unscoped rest at `V c` are the core's unscoped buffers at any
    valuation `V'` that has every window's array at what the call left (`hF`: in particular both windows on a shared
    buffer hold the same contents, so their two halves join to the full share) and agrees with `V c` off the arrays. -/
theorem unscopedBufs_of_arrays2 (c : Dev nD) (V' : (b : Ref sig .tc) → Buf (Elt F) ((c : Thread nD τ).loc b))
    (hF : ∀ w, (dat2 V c).arrAt w cfg2.N = V' (Pipeline.arrRef spec2 w))
    (hrest : ∀ b, b ∉ Finset.univ.image (Pipeline.arrRef spec2) → V' b = V c b) :
    iprop((dat2 V c).arrays ((dat2 V c).arrAt · cfg2.N) ∗ Pipeline.unscopedRest spec2 c (V c))
      ⊢ (unscopedBufs c V' : sProp 𝕄) := by
  rw [split2 c V', arrBufs2_eq, arrays2_eq]
  have e0 : (dat2 V c).arrAt 0 cfg2.N = V' main_v39 := hF 0
  have e1 : (dat2 V c).arrAt 1 cfg2.N = V' main_v39 := hF 1
  have e2 : (dat2 V c).arrAt 2 cfg2.N = V' main_v16 := hF 2
  have e3 : (dat2 V c).arrAt 3 cfg2.N = V' main_v16 := hF 3
  have e4 : (dat2 V c).arrAt 4 cfg2.N = V' main_v40 := hF 4
  have e5 : (dat2 V c).arrAt 5 cfg2.N = V' main_v41 := hF 5
  rw [e0, e1, e2, e3, e4, e5]
  refine BIClass.sep_mono ?_ (Entails.of_eq ?_)
  · refine BIBase.Entails.trans ?_ (BIClass.sep_mono (pointsTo_share (PosShare.mem_left_op_right fullShare)).2
      (BIClass.sep_mono (pointsTo_share (PosShare.mem_left_op_right fullShare)).2 .rfl))
    iintro ⟨Ha, Hb, Hc, Hd, He, Hf⟩
    isplitl [Ha Hb]
    · isplitl [Ha]; · iexact Ha
      iexact Hb
    isplitl [Hc Hd]
    · isplitl [Hc]; · iexact Hc
      iexact Hd
    isplitl [He]; · iexact He
    iexact Hf
  · unfold Pipeline.unscopedRest
    exact bigSep_congr fun b hb => by rw [hrest b (Finset.mem_sdiff.mp hb).2]

end Cert.Kernel.Hand

end
-- ==== Proof.K.Reg2.lean ====
/-
  Call 2 as a segment of the program's run: entered with every unscoped buffer at the fold's contents before it, left
  with them at the contents after it. Its arrays are taken out of the unscoped buffers at entry and put back at the exit (the two arrays read through two windows each go in as two half shares and come back joined);
  the generator register passes through the call's invariant; nothing is owed.
-/
import proofs.«100454_j32100585570938_2_alg».proof.Proof.K.Fold
import proofs.«100454_j32100585570938_2_alg».proof.Proof.K.Body2
import proofs.«100454_j32100585570938_2_alg».proof.Proof.K.Share2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The last thread state without the `owes`: every unscoped buffer at the last boundary's contents, the generator
    register at some state. -/
abbrev Tₙ (c : Dev nD) : sProp 𝕄 := iprop(StableHlo.held (c : Thread nD τ) (Pipeline.ucRefs τ sig) (W6 m c) ∗ ∃ r, prngReg c r)

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := arrays_of_unscopedBufs2 (V5 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 (V5 m) c (V6 m c) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha]
        · iexact Ha
        iexact Hrest
      iexact HY
    unfold Pipeline.Dat.owesAt Pipeline.owesWithin
    icases HO with ⟨%W, -, HO⟩; iexists W; iexact HO

end Cert.Kernel.Hand

end
-- ==== Proof.K.Run.lean ====
/-
  The program's run: from any launch memory with zero counters every weakly fair execution terminates without a fault,
  the result array ends at the last fold's contents (what call 2's write-backs leave) and every argument as launched.
-/
import proofs.«100454_j32100585570938_2_alg».proof.Proof.K.Reg0
import proofs.«100454_j32100585570938_2_alg».proof.Proof.K.Reg1
import proofs.«100454_j32100585570938_2_alg».proof.Proof.K.Reg2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six segments in order: a host segment per stretch from its boundary's contents, a region per call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

/-- The program is the run of its segments. -/
theorem main_run (c : Dev nD) : main (F := F) c = Pipeline.Seg.run (segs m) := (main_chain c).trans (by chain_rfl)

set_option backward.isDefEq.respectTransparency.types false in
theorem run : θ_run defs (onTc (τ := τ) (main (F := F))) ⟨m, fun _ => 0, ρ⟩ (fun r => ∀ c : Dev nD,
      r.2.mem ((c.tc : Thread nD τ).loc main_v41) = W6 m c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨h c _ (mem_uc main_v41 (by decide)),
       (h c _ (mem_uc main_arg0 (by decide))).trans (W6_kept m c main_arg0 (by decide) (by decide) (by decide) (by decide) (by decide) (by decide)),
       (h c _ (mem_uc main_arg1 (by decide))).trans (W6_kept m c main_arg1 (by decide) (by decide) (by decide) (by decide) (by decide) (by decide)),
       (h c _ (mem_uc main_arg2 (by decide))).trans (W6_kept m c main_arg2 (by decide) (by decide) (by decide) (by decide) (by decide) (by decide)),
       (h c _ (mem_uc main_arg3 (by decide))).trans (W6_kept m c main_arg3 (by decide) (by decide) (by decide) (by decide) (by decide) (by decide)),
       (h c _ (mem_uc main_arg4 (by decide))).trans (W6_kept m c main_arg4 (by decide) (by decide) (by decide) (by decide) (by decide) (by decide)),
       (h c _ (mem_uc main_arg5 (by decide))).trans (W6_kept m c main_arg5 (by decide) (by decide) (by decide) (by decide) (by decide) (by decide)),
       (h c _ (mem_uc main_arg6 (by decide))).trans (W6_kept m c main_arg6 (by decide) (by decide) (by decide) (by decide) (by decide) (by decide))⟩)

end Cert.Kernel.Hand

end
-- ==== Proof.KI.Dats.lean ====
/-
  The three pipelined calls' blocks, stored outputs and proof data, at the buffer contents a call is entered with.
-/
import proofs.«100454_j32100585570938_2_alg».proof.Proof.Gen.KernelIdeal.Launch
import proofs.«100454_j32100585570938_2_alg».proof.Proof.Gen.KernelIdeal.Skeleton
import proofs.«100454_j32100585570938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! Three pipelined calls, each read at a parameter `V`: the contents of the TensorCore's buffers when the call is
    entered. For each call: the block of every window at a grid point, what the body's one store leaves in the output
    window's buffer as a function of the input blocks, and the pipeline's proof data (inputs left in place, the output
    at that function, nothing owed). Calls 0 and 1 are a row band of a matrix product scaled row by row; call 2 is an
    output tile of a Gram matrix under the logistic function, whose two row bands come from ONE array through two
    windows, each holding half of the array's share (likewise the normalisation column). -/

variable (V : (c : Dev nD) → (b : Ref sig .tc) → Buf (Elt F) ((c : Thread nD τ).loc b))

/-! ## Call 0: rows of `(x · W₁) ⊙ norm_out` -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x512 := Rect.unit (s := S1024x512) ![0, 0] S1024x512.size inb_S1024x512_S1024x512_0_0
abbrev r0_1 : Rect S512x256 := Rect.unit (s := S512x256) ![0, 0] S512x256.size inb_S512x256_S512x256_0_0
abbrev r0_2 : Rect S1024x1 := Rect.unit (s := S1024x1) ![0, 0] S1024x1.size inb_S1024x1_S1024x1_0_0
abbrev r0_3 : Rect S1024x256 := Rect.unit (s := S1024x256) ![0, 0] S1024x256.size inb_S1024x256_S1024x256_0_0

/-- The output band after the body: its one whole-buffer store of the scaled product of the input blocks. -/
def out0_3 (x0 : Vec F S1024x512 .f32) (x1 : Vec F S512x256 .f32) (x2 : Vec F S1024x1 .f32) : Vec F S1024x256 .f32 :=
  View.canon [⟨r0_3, k0_pay1 (View.ld x0 r0_0) (View.ld x1 r0_1) (View.ld x2 r0_2)⟩]

/-- Call 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Call 1: rows of `(relu(agg ⊙ norm_in + b₁) · W₂) ⊙ norm_out` -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x256 := Rect.unit (s := S1024x256) ![0, 0] S1024x256.size inb_S1024x256_S1024x256_0_0
abbrev r1_1 : Rect S1024x1 := Rect.unit (s := S1024x1) ![0, 0] S1024x1.size inb_S1024x1_S1024x1_0_0
abbrev r1_2 : Rect S1x256 := Rect.unit (s := S1x256) ![0, 0] S1x256.size inb_S1x256_S1x256_0_0
abbrev r1_3 : Rect S256x64 := Rect.unit (s := S256x64) ![0, 0] S256x64.size inb_S256x64_S256x64_0_0
abbrev r1_4 : Rect S1024x1 := Rect.unit (s := S1024x1) ![0, 0] S1024x1.size inb_S1024x1_S1024x1_0_0
abbrev r1_5 : Rect S1024x64 := Rect.unit (s := S1024x64) ![0, 0] S1024x64.size inb_S1024x64_S1024x64_0_0

def out1_5 (x0 : Vec F S1024x256 .f32) (x1 : Vec F S1024x1 .f32) (x2 : Vec F S1x256 .f32) (x3 : Vec F S256x64 .f32)
    (x4 : Vec F S1024x1 .f32) : Vec F S1024x64 .f32 :=
  View.canon [⟨r1_5, k1_pay1 (View.ld x0 r1_0) (View.ld x1 r1_1) (View.ld x2 r1_2) (View.ld x3 r1_3) (View.ld x4 r1_4)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-! ## Call 2: tiles of `logistic (z · zᵀ)`, `z = agg ⊙ norm_in + b₂` -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2048x64 := Rect.unit (s := S2048x64) ![0, 0] S2048x64.size inb_S2048x64_S2048x64_0_0
abbrev r2_1 : Rect S1024x64 := Rect.unit (s := S1024x64) ![0, 0] S1024x64.size inb_S1024x64_S1024x64_0_0
abbrev r2_2 : Rect S2048x1 := Rect.unit (s := S2048x1) ![0, 0] S2048x1.size inb_S2048x1_S2048x1_0_0
abbrev r2_3 : Rect S1024x1 := Rect.unit (s := S1024x1) ![0, 0] S1024x1.size inb_S1024x1_S1024x1_0_0
abbrev r2_4 : Rect S1x64 := Rect.unit (s := S1x64) ![0, 0] S1x64.size inb_S1x64_S1x64_0_0
abbrev r2_5 : Rect S2048x1024 := Rect.unit (s := S2048x1024) ![0, 0] S2048x1024.size inb_S2048x1024_S2048x1024_0_0

/-- The output tile after the body. The bias row is loaded twice (once for each band); both loads read the same block. -/
def out2_5 (x0 : Vec F S2048x64 .f32) (x1 : Vec F S1024x64 .f32) (x2 : Vec F S2048x1 .f32) (x3 : Vec F S1024x1 .f32)
    (x4 : Vec F S1x64 .f32) : Vec F S2048x1024 .f32 :=
  View.canon [⟨r2_5, k2_pay1 (View.ld x0 r2_0) (View.ld x2 r2_2) (View.ld x4 r2_4) (View.ld x1 r2_1) (View.ld x3 r2_3) (View.ld x4 r2_4)⟩]

/-- Call 2's proof data: windows 0 and 1 read one array, windows 2 and 3 another; each of the four holds half a share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

end Cert.KernelIdeal.Hand

end
-- ==== Proof.KI.Fold.lean ====
/-
  The buffer contents at each boundary of the program's six segments (three host stretches, three pipelined calls),
  folded from the launch memory: a host stretch applies its operations; a call replaces its one output array by what
  its write-backs leave and keeps every other buffer. No segment writes an argument, so each argument reads back to
  its launch contents through the fold.
-/
import proofs.«100454_j32100585570938_2_alg».proof.Proof.KI.Dats
import proofs.«100454_j32100585570938_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- After the first host stretch (the degree factors as columns): call 0's entry. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At call 0's exit: its output array at what the write-backs leave, every other buffer as entered. -/
def W2 (c : Dev nD) : Valuation τ sig (Elt F) :=
  Function.update (W1 m c) main_v17 ((dat0 (V1 m) c).arrAt 3 cfg0.N)
abbrev V2 : (c : Dev nD) → (b : Ref sig .tc) → Buf (Elt F) ((c : Thread nD τ).loc b) := fun c b => W2 m c b
/-- After the second host stretch (the first aggregation along the edges): call 1's entry. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
def W4 (c : Dev nD) : Valuation τ sig (Elt F) :=
  Function.update (W3 m c) main_v29 ((dat1 (V3 m) c).arrAt 5 cfg1.N)
abbrev V4 : (c : Dev nD) → (b : Ref sig .tc) → Buf (Elt F) ((c : Thread nD τ).loc b) := fun c b => W4 m c b
/-- After the third host stretch (the second aggregation): call 2's entry. -/
abbrev W5 (c : Dev nD) : Valuation τ sig (Elt F) := StableHlo.after hostOps2 (W4 m c)
abbrev V5 : (c : Dev nD) → (b : Ref sig .tc) → Buf (Elt F) ((c : Thread nD τ).loc b) := fun c b => W5 m c b
def W6 (c : Dev nD) : Valuation τ sig (Elt F) :=
  Function.update (W5 m c) main_v41 ((dat2 (V5 m) c).arrAt 5 cfg2.N)
abbrev V6 : (c : Dev nD) → (b : Ref sig .tc) → Buf (Elt F) ((c : Thread nD τ).loc b) := fun c b => W6 m c b

/-! ## A call's exit contents: the output array replaced, the rest kept -/

theorem W2_out (c : Dev nD) : W2 m c (Proc.devRef .tc main_v17) = (dat0 (V1 m) c).arrAt 3 cfg0.N := by
  unfold W2; exact Function.update_self _ _ _
theorem W2_of_ne (c : Dev nD) (b : Ref sig .tc) (hb : b ≠ main_v17) : W2 m c (Proc.devRef .tc b) = W1 m c (Proc.devRef .tc b) := by
  unfold W2; exact Function.update_of_ne (StableHlo.devRef_ne_of_ne hb) _ _
theorem W4_out (c : Dev nD) : W4 m c (Proc.devRef .tc main_v29) = (dat1 (V3 m) c).arrAt 5 cfg1.N := by
  unfold W4; exact Function.update_self _ _ _
theorem W4_of_ne (c : Dev nD) (b : Ref sig .tc) (hb : b ≠ main_v29) : W4 m c (Proc.devRef .tc b) = W3 m c (Proc.devRef .tc b) := by
  unfold W4; exact Function.update_of_ne (StableHlo.devRef_ne_of_ne hb) _ _
theorem W6_out (c : Dev nD) : W6 m c (Proc.devRef .tc main_v41) = (dat2 (V5 m) c).arrAt 5 cfg2.N := by
  unfold W6; exact Function.update_self _ _ _
theorem W6_of_ne (c : Dev nD) (b : Ref sig .tc) (hb : b ≠ main_v41) : W6 m c (Proc.devRef .tc b) = W5 m c (Proc.devRef .tc b) := by
  unfold W6; exact Function.update_of_ne (StableHlo.devRef_ne_of_ne hb) _ _

/-- At call 0's exit each of its arrays holds what the pipeline leaves: the inputs as entered, the output its write-backs. -/
theorem hF0 (c : Dev nD) (w : Fin cfg0.W) : (dat0 (V1 m) c).arrAt w cfg0.N = V2 m c (Pipeline.arrRef spec0 w) := by
  match w with
  | ⟨0, _⟩ => exact (((dat0 (V1 m) c).arrAt_in 0 rfl _).trans (A_eq0 (V1 m) c 0)).trans (W2_of_ne m c _ (by decide)).symm
  | ⟨1, _⟩ => exact (((dat0 (V1 m) c).arrAt_in 1 rfl _).trans (A_eq0 (V1 m) c 1)).trans (W2_of_ne m c _ (by decide)).symm
  | ⟨2, _⟩ => exact (((dat0 (V1 m) c).arrAt_in 2 rfl _).trans (A_eq0 (V1 m) c 2)).trans (W2_of_ne m c _ (by decide)).symm
  | ⟨3, _⟩ => exact (W2_out m c).symm
theorem hrest0 (c : Dev nD) : ∀ b, b ∉ Finset.univ.image (Pipeline.arrRef spec0) → V2 m c b = V1 m c b :=
  fun b hb => W2_of_ne m c b fun e => hb (Finset.mem_image.mpr ⟨3, Finset.mem_univ _, e.symm⟩)

theorem hF1 (c : Dev nD) (w : Fin cfg1.W) : (dat1 (V3 m) c).arrAt w cfg1.N = V4 m c (Pipeline.arrRef spec1 w) := by
  match w with
  | ⟨0, _⟩ => exact (((dat1 (V3 m) c).arrAt_in 0 rfl _).trans (A_eq1 (V3 m) c 0)).trans (W4_of_ne m c _ (by decide)).symm
  | ⟨1, _⟩ => exact (((dat1 (V3 m) c).arrAt_in 1 rfl _).trans (A_eq1 (V3 m) c 1)).trans (W4_of_ne m c _ (by decide)).symm
  | ⟨2, _⟩ => exact (((dat1 (V3 m) c).arrAt_in 2 rfl _).trans (A_eq1 (V3 m) c 2)).trans (W4_of_ne m c _ (by decide)).symm
  | ⟨3, _⟩ => exact (((dat1 (V3 m) c).arrAt_in 3 rfl _).trans (A_eq1 (V3 m) c 3)).trans (W4_of_ne m c _ (by decide)).symm
  | ⟨4, _⟩ => exact (((dat1 (V3 m) c).arrAt_in 4 rfl _).trans (A_eq1 (V3 m) c 4)).trans (W4_of_ne m c _ (by decide)).symm
  | ⟨5, _⟩ => exact (W4_out m c).symm
theorem hrest1 (c : Dev nD) : ∀ b, b ∉ Finset.univ.image (Pipeline.arrRef spec1) → V4 m c b = V3 m c b :=
  fun b hb => W4_of_ne m c b fun e => hb (Finset.mem_image.mpr ⟨5, Finset.mem_univ _, e.symm⟩)

theorem hF2 (c : Dev nD) (w : Fin cfg2.W) : (dat2 (V5 m) c).arrAt w cfg2.N = V6 m c (Pipeline.arrRef spec2 w) := by
  match w with
  | ⟨0, _⟩ => exact (((dat2 (V5 m) c).arrAt_in 0 rfl _).trans (A_eq2 (V5 m) c 0)).trans (W6_of_ne m c _ (by decide)).symm
  | ⟨1, _⟩ => exact (((dat2 (V5 m) c).arrAt_in 1 rfl _).trans (A_eq2 (V5 m) c 1)).trans (W6_of_ne m c _ (by decide)).symm
  | ⟨2, _⟩ => exact (((dat2 (V5 m) c).arrAt_in 2 rfl _).trans (A_eq2 (V5 m) c 2)).trans (W6_of_ne m c _ (by decide)).symm
  | ⟨3, _⟩ => exact (((dat2 (V5 m) c).arrAt_in 3 rfl _).trans (A_eq2 (V5 m) c 3)).trans (W6_of_ne m c _ (by decide)).symm
  | ⟨4, _⟩ => exact (((dat2 (V5 m) c).arrAt_in 4 rfl _).trans (A_eq2 (V5 m) c 4)).trans (W6_of_ne m c _ (by decide)).symm
  | ⟨5, _⟩ => exact (W6_out m c).symm
theorem hrest2 (c : Dev nD) : ∀ b, b ∉ Finset.univ.image (Pipeline.arrRef spec2) → V6 m c b = V5 m c b :=
  fun b hb => W6_of_ne m c b fun e => hb (Finset.mem_image.mpr ⟨5, Finset.mem_univ _, e.symm⟩)

/-! ## A buffer no segment writes reads back to the launch memory -/

/-- A buffer written by no host stretch and by no call ends as launched. -/
theorem W6_kept (c : Dev nD) (b : Ref sig .tc) (h0 : b ∉ hostOps0_W) (h1 : b ∉ hostOps1_W) (h2 : b ∉ hostOps2_W)
    (n17 : b ≠ main_v17) (n29 : b ≠ main_v29) (n41 : b ≠ main_v41) :
    W6 m c (Proc.devRef .tc b) = m ((c : Thread nD τ).loc b) :=
  calc W6 m c (Proc.devRef .tc b)
    _ = W5 m c (Proc.devRef .tc b) := W6_of_ne m c b n41
    _ = W4 m c (Proc.devRef .tc b) := StableHlo.after_of_writes_sub hostOps2 _ hostOps2_writes h2
    _ = W3 m c (Proc.devRef .tc b) := W4_of_ne m c b n29
    _ = W2 m c (Proc.devRef .tc b) := StableHlo.after_of_writes_sub hostOps1 _ hostOps1_writes h1
    _ = W1 m c (Proc.devRef .tc b) := W2_of_ne m c b n17
    _ = W0 m c (Proc.devRef .tc b) := StableHlo.after_of_writes_sub hostOps0 _ hostOps0_writes h0
    _ = m ((c : Thread nD τ).loc b) := rfl

/-! ## The proof data family -/

/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Body0.lean ====
/-
  Call 0's body at a grid point: every input window's staging buffer holds its block, and the body's one store leaves
  the output band at the scaled product of the input blocks.
-/
import proofs.«100454_j32100585570938_2_alg».proof.Proof.KI.Dats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- An input window's current staging buffer holds its block at every point, fetched there or not: a window that is
    not fetched at a point has the block index it had at the point before, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The one store covers the output band -/

theorem cover0_3 (p0 : Vec F S1024x256 .f32) (y : S1024x256.Idx) :
    ∃ pc ∈ ([⟨r0_3, p0⟩] : List (View.Piece (Elt F) S1024x256 .f32)), y ∈ pc.1.set :=
  View.cover_of_tiled [⟨r0_3, p0⟩] S1024x256.size (by rfl) y

/-! ## The body's triple -/

set_option maxHeartbeats 1000000 in
/-- The body on whole staging memrefs, the inputs at contents `x0 x1 x2` and the output at anything, runs to the
    continuation with the inputs as they were and the output at `out0_3 x0 x1 x2`: three loads, a load of the output
    whose value is not used, and one store of the whole band. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S1024x1 .f32) (harg3 : arg3.IsWhole) (arg4 : Memref sig .tc .vmem S1024x256 .f32) (harg4 : arg4.IsWhole)
    (x0 : Vec F S1024x512 .f32) (x1 : Vec F S512x256 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__scaled_matmul_kernel i arg1 harg1 arg2 harg2 arg3 harg3 arg4 harg4) K := by
  simp only [cc0__scaled_matmul_kernel_eq_skeleton]; unfold cc0__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg0.lean ====
/-
  Call 0 as a segment of the program's run: entered with every unscoped buffer at the fold's contents before it, left
  with them at the contents after it. Its arrays are taken out of the unscoped buffers at entry and put back at the exit;
  the generator register passes through the call's invariant; nothing is owed.
-/
import proofs.«100454_j32100585570938_2_alg».proof.Proof.KI.Fold
import proofs.«100454_j32100585570938_2_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body1.lean ====
/-
  Call 1's body at a grid point: every input window's staging buffer holds its block, and the body's one store leaves
  the output band at the scaled product of the rectified, biased, normalised input band with the weight block.
-/
import proofs.«100454_j32100585570938_2_alg».proof.Proof.KI.Dats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- An input window's current staging buffer holds its block at every point, fetched there or not: a window that is
    not fetched at a point has the block index it had at the point before, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The one store covers the output block -/

theorem cover1_5 (p0 : Vec F S1024x64 .f32) (y : S1024x64.Idx) :
    ∃ pc ∈ ([⟨r1_5, p0⟩] : List (View.Piece (Elt F) S1024x64 .f32)), y ∈ pc.1.set :=
  View.cover_of_tiled [⟨r1_5, p0⟩] S1024x64.size (by rfl) y

/-! ## The body's triple -/

set_option maxHeartbeats 1000000 in
/-- The body on whole staging memrefs, the inputs at contents `x0 … x4` and the output at anything, runs to the
    continuation with the inputs as they were and the output at `out1_5 x0 … x4`: five loads, a load of the output
    whose value is not used, and one store of the whole band. -/
theorem sound_kernel1 (c : Dev nD) (E : Set ℕ) (i : grid1.Coords)
    (arg1 : Memref sig .tc .vmem S1024x256 .f32) (harg1 : arg1.IsWhole) (arg2 : Memref sig .tc .vmem S1024x1 .f32) (harg2 : arg2.IsWhole)
    (arg3 : Memref sig .tc .vmem S1x256 .f32) (harg3 : arg3.IsWhole) (arg4 : Memref sig .tc .vmem S256x64 .f32) (harg4 : arg4.IsWhole)
    (arg5 : Memref sig .tc .vmem S1024x1 .f32) (harg5 : arg5.IsWhole) (arg6 : Memref sig .tc .vmem S1024x64 .f32) (harg6 : arg6.IsWhole)
    (x0 : Vec F S1024x256 .f32) (x1 : Vec F S1024x1 .f32) (x2 : Vec F S1x256 .f32) (x3 : Vec F S256x64 .f32) (x4 : Vec F S1024x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__prologue_scaled_matmul_kernel i arg1 harg1 arg2 harg2 arg3 harg3 arg4 harg4 arg5 harg5 arg6 harg6) K := by
  simp only [cc1__prologue_scaled_matmul_kernel_eq_skeleton]; unfold cc1__prologue_scaled_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg1.lean ====
/-
  Call 1 as a segment of the program's run: entered with every unscoped buffer at the fold's contents before it, left
  with them at the contents after it. Its arrays are taken out of the unscoped buffers at entry and put back at the exit;
  the generator register passes through the call's invariant; nothing is owed.
-/
import proofs.«100454_j32100585570938_2_alg».proof.Proof.KI.Fold
import proofs.«100454_j32100585570938_2_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body2.lean ====
/-
  Call 2's body at a grid point: every input window's staging buffer holds its block, and the body's one store leaves
  the output tile at the logistic function of the product of the two biased, normalised row bands.
-/
import proofs.«100454_j32100585570938_2_alg».proof.Proof.KI.Dats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- An input window's current staging buffer holds its block at every point, fetched there or not: a window that is
    not fetched at a point has the block index it had at the point before, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The one store covers the output block -/

theorem cover2_5 (p0 : Vec F S2048x1024 .f32) (y : S2048x1024.Idx) :
    ∃ pc ∈ ([⟨r2_5, p0⟩] : List (View.Piece (Elt F) S2048x1024 .f32)), y ∈ pc.1.set :=
  View.cover_of_tiled [⟨r2_5, p0⟩] S2048x1024.size (by rfl) y

/-! ## The body's triple -/

set_option maxHeartbeats 1000000 in
/-- The body on whole staging memrefs, the inputs at contents `x0 … x4` and the output at anything, runs to the
    continuation with the inputs as they were and the output at `out2_5 x0 … x4`: the bias row is loaded twice and
    both loads read the same block; the output is loaded once (its value is not used) and then stored whole. -/
theorem sound_kernel2 (c : Dev nD) (E : Set ℕ) (i : grid2.Coords)
    (arg2 : Memref sig .tc .vmem S2048x64 .f32) (harg2 : arg2.IsWhole) (arg3 : Memref sig .tc .vmem S1024x64 .f32) (harg3 : arg3.IsWhole)
    (arg4 : Memref sig .tc .vmem S2048x1 .f32) (harg4 : arg4.IsWhole) (arg5 : Memref sig .tc .vmem S1024x1 .f32) (harg5 : arg5.IsWhole)
    (arg6 : Memref sig .tc .vmem S1x64 .f32) (harg6 : arg6.IsWhole) (arg7 : Memref sig .tc .vmem S2048x1024 .f32) (harg7 : arg7.IsWhole)
    (x0 : Vec F S2048x64 .f32) (x1 : Vec F S1024x64 .f32) (x2 : Vec F S2048x1 .f32) (x3 : Vec F S1024x1 .f32) (x4 : Vec F S1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out2_5 x0 x1 x2 x3 x4)) -∗ K ⟨⟩))
      ⊢ wp frame (wpE (defs₀ (F := F)) Variants.none c none) E (cc2__decoder_kernel i arg2 harg2 arg3 harg3 arg4 harg4 arg5 harg5 arg6 harg6 arg7 harg7) K := by
  simp only [cc2__decoder_kernel_eq_skeleton]; unfold cc2__decoder_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Share2.lean ====
/-
  Call 2's arrays among the core's unscoped buffers. Two of its arrays are each read through two windows, so the
  buffer behind such an array, held whole at the full share, is dealt to its two windows as the left and the right
  half of that share; at the call's exit the two halves, holding the same contents, join back to the full share.
-/
import proofs.«100454_j32100585570938_2_alg».proof.Proof.KI.Dats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four buffers behind the six windows -/

/-- The six windows' arrays are four buffers: the node features `z`'s source (windows 0 and 1), the normalisation
    column (windows 2 and 3), the bias row (window 4) and the output (window 5). -/
theorem arrImage2 : (Finset.univ.image (Pipeline.arrRef spec2) : Finset (Ref sig .tc)) = {main_v39, main_v16, main_v40, main_v41} := by decide

/-- None of them is a scoped buffer. -/
theorem arr_unscoped2 : ∀ w, (Pipeline.arrRef spec2 w).isScoped = false := winFacts₀2.arr_unscoped

/-- A core's unscoped buffers at contents `W` are the four buffers behind the windows' arrays at `W` and the rest. -/
theorem split2 (c : Dev nD) (W : (b : Ref sig .tc) → Buf (Elt F) ((c : Thread nD τ).loc b)) :
    (unscopedBufs c W : sProp 𝕄) = iprop((Pipeline.arrBufs spec2 c W : sProp 𝕄) ∗ Pipeline.unscopedRest spec2 c W) := by
  classical
  have hA : Finset.univ.image (Pipeline.arrRef spec2) ⊆ Finset.univ.filter fun b : Ref sig .tc => ¬ b.isScoped := fun b hb => by
    obtain ⟨w, -, rfl⟩ := Finset.mem_image.mp hb
    exact Finset.mem_filter.mpr ⟨Finset.mem_univ _, by simp [arr_unscoped2 w]⟩
  unfold unscopedBufs Pipeline.unscopedRest Pipeline.arrBufs
  rw [bigSep_sdiff_split hA]
  rfl

/-- The four buffers, one by one, each whole at the full share. -/
theorem arrBufs2_eq (c : Dev nD) (W : (b : Ref sig .tc) → Buf (Elt F) ((c : Thread nD τ).loc b)) :
    (Pipeline.arrBufs spec2 c W : sProp 𝕄)
      = iprop((((c : Thread nD τ).loc main_v39) ↦{fullShare} W main_v39) ∗ (((c : Thread nD τ).loc main_v16) ↦{fullShare} W main_v16)
          ∗ (((c : Thread nD τ).loc main_v40) ↦{fullShare} W main_v40) ∗ (((c : Thread nD τ).loc main_v41) ↦{fullShare} W main_v41)) := by
  unfold Pipeline.arrBufs
  rw [arrImage2]
  rw [bigSep_insert (by decide), bigSep_insert (by decide), bigSep_insert (by decide), bigSep_singleton]
  rfl

/-! ## Each window's array: a whole buffer at the window's share -/
/-- Window 0's array is all of `main_v39`, held at the left half of the full share. -/
theorem arr2_0 (c : Dev nD) (G : Buf (Elt F) ((cfg2.win 0).arr.view.loc (c : Thread nD τ))) :
    (((cfg2.win 0).arr.view.loc (c : Thread nD τ)) ↦[(cfg2.win 0).arr.view.set]{(dat2 V c).share 0} G : sProp 𝕄)
      = (((c : Thread nD τ).loc main_v39) ↦{fullShare.left} G) := by
  rw [(arr_whole2 0).set_eq_univ]
  rfl

/-- Window 1's array is all of `main_v39`, held at the right half of the full share. -/
theorem arr2_1 (c : Dev nD) (G : Buf (Elt F) ((cfg2.win 1).arr.view.loc (c : Thread nD τ))) :
    (((cfg2.win 1).arr.view.loc (c : Thread nD τ)) ↦[(cfg2.win 1).arr.view.set]{(dat2 V c).share 1} G : sProp 𝕄)
      = (((c : Thread nD τ).loc main_v39) ↦{fullShare.right} G) := by
  rw [(arr_whole2 1).set_eq_univ]
  rfl

/-- Window 2's array is all of `main_v16`, held at the left half of the full share. -/
theorem arr2_2 (c : Dev nD) (G : Buf (Elt F) ((cfg2.win 2).arr.view.loc (c : Thread nD τ))) :
    (((cfg2.win 2).arr.view.loc (c : Thread nD τ)) ↦[(cfg2.win 2).arr.view.set]{(dat2 V c).share 2} G : sProp 𝕄)
      = (((c : Thread nD τ).loc main_v16) ↦{fullShare.left} G) := by
  rw [(arr_whole2 2).set_eq_univ]
  rfl

/-- Window 3's array is all of `main_v16`, held at the right half of the full share. -/
theorem arr2_3 (c : Dev nD) (G : Buf (Elt F) ((cfg2.win 3).arr.view.loc (c : Thread nD τ))) :
    (((cfg2.win 3).arr.view.loc (c : Thread nD τ)) ↦[(cfg2.win 3).arr.view.set]{(dat2 V c).share 3} G : sProp 𝕄)
      = (((c : Thread nD τ).loc main_v16) ↦{fullShare.right} G) := by
  rw [(arr_whole2 3).set_eq_univ]
  rfl

/-- Window 4's array is all of `main_v40`, held at the full share. -/
theorem arr2_4 (c : Dev nD) (G : Buf (Elt F) ((cfg2.win 4).arr.view.loc (c : Thread nD τ))) :
    (((cfg2.win 4).arr.view.loc (c : Thread nD τ)) ↦[(cfg2.win 4).arr.view.set]{(dat2 V c).share 4} G : sProp 𝕄)
      = (((c : Thread nD τ).loc main_v40) ↦{fullShare} G) := by
  rw [(arr_whole2 4).set_eq_univ]
  rfl

/-- Window 5's array is all of `main_v41`, held at the full share. -/
theorem arr2_5 (c : Dev nD) (G : Buf (Elt F) ((cfg2.win 5).arr.view.loc (c : Thread nD τ))) :
    (((cfg2.win 5).arr.view.loc (c : Thread nD τ)) ↦[(cfg2.win 5).arr.view.set]{(dat2 V c).share 5} G : sProp 𝕄)
      = (((c : Thread nD τ).loc main_v41) ↦{fullShare} G) := by
  rw [(arr_whole2 5).set_eq_univ]
  rfl

/-- The call's arrays at contents `G`, window by window: the two shared buffers appear twice, once at each half. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_v39) ↦{fullShare.left} G 0) ∗ (((c : Thread nD τ).loc main_v39) ↦{fullShare.right} G 1)
          ∗ (((c : Thread nD τ).loc main_v16) ↦{fullShare.left} G 2) ∗ (((c : Thread nD τ).loc main_v16) ↦{fullShare.right} G 3)
          ∗ (((c : Thread nD τ).loc main_v40) ↦{fullShare} G 4) ∗ (((c : Thread nD τ).loc main_v41) ↦{fullShare} G 5)) := by
  unfold Dat.arrays
  rw [bigSep_W2]
  exact congrArg₂ BI.sep (arr2_0 V c (G 0)) (congrArg₂ BI.sep (arr2_1 V c (G 1)) (congrArg₂ BI.sep (arr2_2 V c (G 2))
    (congrArg₂ BI.sep (arr2_3 V c (G 3)) (congrArg₂ BI.sep (arr2_4 V c (G 4)) (arr2_5 V c (G 5))))))

/-! ## Entry and exit -/

/-- ENTRY: a core's unscoped buffers at contents `V c` are call 2's arrays at the contents the call is entered with — each
    shared buffer's full share split into its left half (the first window on it) and its right half (the second) —
    and the unscoped rest. -/
theorem arrays_of_unscopedBufs2 (c : Dev nD) :
    (unscopedBufs c (V c) : sProp 𝕄)
      ⊢ iprop((dat2 V c).arrays ((dat2 V c).arrAt · 0) ∗ Pipeline.unscopedRest spec2 c (V c)) := by
  rw [split2, arrBufs2_eq, arrays2_eq]
  refine BIClass.sep_mono ?_ .rfl
  refine (BIClass.sep_mono (pointsTo_share (PosShare.mem_left_op_right fullShare)).1
    (BIClass.sep_mono (pointsTo_share (PosShare.mem_left_op_right fullShare)).1 .rfl)).trans ?_
  iintro ⟨⟨Ha, Hb⟩, ⟨Hc, Hd⟩, He, Hf⟩
  isplitl [Ha]; · iexact Ha
  isplitl [Hb]; · iexact Hb
  isplitl [Hc]; · iexact Hc
  isplitl [Hd]; · iexact Hd
  isplitl [He]; · iexact He
  iexact Hf

/-- EXIT: call 2's arrays as the call leaves them and the unscoped rest at `V c` are the core's unscoped buffers at any
    valuation `V'` that has every window's array at what the call left (`hF`: in particular both windows on a shared
    buffer hold the same contents, so their two halves join to the full share) and agrees with `V c` off the arrays. -/
theorem unscopedBufs_of_arrays2 (c : Dev nD) (V' : (b : Ref sig .tc) → Buf (Elt F) ((c : Thread nD τ).loc b))
    (hF : ∀ w, (dat2 V c).arrAt w cfg2.N = V' (Pipeline.arrRef spec2 w))
    (hrest : ∀ b, b ∉ Finset.univ.image (Pipeline.arrRef spec2) → V' b = V c b) :
    iprop((dat2 V c).arrays ((dat2 V c).arrAt · cfg2.N) ∗ Pipeline.unscopedRest spec2 c (V c))
      ⊢ (unscopedBufs c V' : sProp 𝕄) := by
  rw [split2 c V', arrBufs2_eq, arrays2_eq]
  have e0 : (dat2 V c).arrAt 0 cfg2.N = V' main_v39 := hF 0
  have e1 : (dat2 V c).arrAt 1 cfg2.N = V' main_v39 := hF 1
  have e2 : (dat2 V c).arrAt 2 cfg2.N = V' main_v16 := hF 2
  have e3 : (dat2 V c).arrAt 3 cfg2.N = V' main_v16 := hF 3
  have e4 : (dat2 V c).arrAt 4 cfg2.N = V' main_v40 := hF 4
  have e5 : (dat2 V c).arrAt 5 cfg2.N = V' main_v41 := hF 5
  rw [e0, e1, e2, e3, e4, e5]
  refine BIClass.sep_mono ?_ (Entails.of_eq ?_)
  · refine BIBase.Entails.trans ?_ (BIClass.sep_mono (pointsTo_share (PosShare.mem_left_op_right fullShare)).2
      (BIClass.sep_mono (pointsTo_share (PosShare.mem_left_op_right fullShare)).2 .rfl))
    iintro ⟨Ha, Hb, Hc, Hd, He, Hf⟩
    isplitl [Ha Hb]
    · isplitl [Ha]; · iexact Ha
      iexact Hb
    isplitl [Hc Hd]
    · isplitl [Hc]; · iexact Hc
      iexact Hd
    isplitl [He]; · iexact He
    iexact Hf
  · unfold Pipeline.unscopedRest
    exact bigSep_congr fun b hb => by rw [hrest b (Finset.mem_sdiff.mp hb).2]

end Cert.KernelIdeal.Hand

end
-- ==== Proof.KI.Reg2.lean ====
/-
  Call 2 as a segment of the program's run: entered with every unscoped buffer at the fold's contents before it, left
  with them at the contents after it. Its arrays are taken out of the unscoped buffers at entry and put back at the exit (the two arrays read through two windows each go in as two half shares and come back joined);
  the generator register passes through the call's invariant; nothing is owed.
-/
import proofs.«100454_j32100585570938_2_alg».proof.Proof.KI.Fold
import proofs.«100454_j32100585570938_2_alg».proof.Proof.KI.Body2
import proofs.«100454_j32100585570938_2_alg».proof.Proof.KI.Share2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The last thread state without the `owes`: every unscoped buffer at the last boundary's contents, the generator
    register at some state. -/
abbrev Tₙ (c : Dev nD) : sProp 𝕄 := iprop(StableHlo.held (c : Thread nD τ) (Pipeline.ucRefs τ sig) (W6 m c) ∗ ∃ r, prngReg c r)

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := arrays_of_unscopedBufs2 (V5 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 (V5 m) c (V6 m c) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha]
        · iexact Ha
        iexact Hrest
      iexact HY
    unfold Pipeline.Dat.owesAt Pipeline.owesWithin
    icases HO with ⟨%W, -, HO⟩; iexists W; iexact HO

end Cert.KernelIdeal.Hand

end
-- ==== Proof.KI.Run.lean ====
/-
  The program's run: from any launch memory with zero counters every weakly fair execution terminates without a fault,
  the result array ends at the last fold's contents (what call 2's write-backs leave) and every argument as launched.
-/
import proofs.«100454_j32100585570938_2_alg».proof.Proof.KI.Reg0
import proofs.«100454_j32100585570938_2_alg».proof.Proof.KI.Reg1
import proofs.«100454_j32100585570938_2_alg».proof.Proof.KI.Reg2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six segments in order: a host segment per stretch from its boundary's contents, a region per call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

/-- The program is the run of its segments. -/
theorem main_run (c : Dev nD) : main (F := F) c = Pipeline.Seg.run (segs m) := (main_chain c).trans (by chain_rfl)

set_option backward.isDefEq.respectTransparency.types false in
theorem run : θ_run defs (onTc (τ := τ) (main (F := F))) ⟨m, fun _ => 0, ρ⟩ (fun r => ∀ c : Dev nD,
      r.2.mem ((c.tc : Thread nD τ).loc main_v41) = W6 m c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨h c _ (mem_uc main_v41 (by decide)),
       (h c _ (mem_uc main_arg0 (by decide))).trans (W6_kept m c main_arg0 (by decide) (by decide) (by decide) (by decide) (by decide) (by decide)),
       (h c _ (mem_uc main_arg1 (by decide))).trans (W6_kept m c main_arg1 (by decide) (by decide) (by decide) (by decide) (by decide) (by decide)),
       (h c _ (mem_uc main_arg2 (by decide))).trans (W6_kept m c main_arg2 (by decide) (by decide) (by decide) (by decide) (by decide) (by decide)),
       (h c _ (mem_uc main_arg3 (by decide))).trans (W6_kept m c main_arg3 (by decide) (by decide) (by decide) (by decide) (by decide) (by decide)),
       (h c _ (mem_uc main_arg4 (by decide))).trans (W6_kept m c main_arg4 (by decide) (by decide) (by decide) (by decide) (by decide) (by decide)),
       (h c _ (mem_uc main_arg5 (by decide))).trans (W6_kept m c main_arg5 (by decide) (by decide) (by decide) (by decide) (by decide) (by decide)),
       (h c _ (mem_uc main_arg6 (by decide))).trans (W6_kept m c main_arg6 (by decide) (by decide) (by decide) (by decide) (by decide) (by decide))⟩)

end Cert.KernelIdeal.Hand

end
-- ==== Proof.Spec.lean ====
/-
  A two-layer graph convolution followed by an inner-product decoder, entry by entry on the extended reals.

  With `s(a)` the out-degree factor and `t(a)` the in-degree factor of node `a` (both given here as one-column
  matrices), one layer sends a feature matrix `X` to `Y(a,q) = (Σ_k X(a,k)·W(k,q)) · s(a)`; the rows of `Y` are then
  summed along the edges into `A`, and the next layer starts from `H(a,k) = max(A(a,k)·t(a) + b(k), 0)`. After the
  second aggregation the embedding is `Z(a,k) = A(a,k)·t(a) + b(k)`, and the decoder's entry `(a,b)` is the logistic
  function of the inner product of rows `a` and `b` of `Z`. The aggregation along the edges is not spelt here: both
  programs apply the same gather and scatter to these arrays.
-/
import Idealize.ShloMosaic.PureOps.Ideal
import Idealize.ShloMosaic.Lib.ValueIdx

noncomputable section

namespace Cert.Gcn

open Idealize.ShloMosaic Idealize.ShloMosaic.ValueIdx

/-- Entry `(p,q)` of the first layer's scaled product: `(Σ_k x(p,k)·w(k,q)) · s(p)`. -/
def lin1 (x : (⟨2, ![8192, 512]⟩ : Shape).Idx → EReal) (w : (⟨2, ![512, 256]⟩ : Shape).Idx → EReal)
    (s : (⟨2, ![8192, 1]⟩ : Shape).Idx → EReal) (p : Fin 8192) (q : Fin 256) : EReal :=
  (∑ k : Fin 512, x (ix2 p k) * w (ix2 k q)) * s (ix2 p 0)

/-- Entry `(p,k)` of the hidden layer: `max(a(p,k)·t(p) + b(k), 0)`, the zero kept as the f32 zero word. -/
def hid (a : (⟨2, ![8192, 256]⟩ : Shape).Idx → EReal) (t : (⟨2, ![8192, 1]⟩ : Shape).Idx → EReal)
    (b : (⟨2, ![1, 256]⟩ : Shape).Idx → EReal) (p : Fin 8192) (k : Fin 256) : EReal :=
  max (a (ix2 p k) * t (ix2 p 0) + b (ix2 0 k)) (Ideal.ofBits .f32 0x00000000#32)

/-- Entry `(p,q)` of the second layer's scaled product: `(Σ_k hid(p,k)·w(k,q)) · s(p)`. -/
def lin2 (a : (⟨2, ![8192, 256]⟩ : Shape).Idx → EReal) (t : (⟨2, ![8192, 1]⟩ : Shape).Idx → EReal)
    (b : (⟨2, ![1, 256]⟩ : Shape).Idx → EReal) (w : (⟨2, ![256, 64]⟩ : Shape).Idx → EReal)
    (s : (⟨2, ![8192, 1]⟩ : Shape).Idx → EReal) (p : Fin 8192) (q : Fin 64) : EReal :=
  (∑ k : Fin 256, hid a t b p k * w (ix2 k q)) * s (ix2 p 0)

/-- Entry `(p,k)` of the embedding: `a(p,k)·t(p) + b(k)`. -/
def emb (a : (⟨2, ![8192, 64]⟩ : Shape).Idx → EReal) (t : (⟨2, ![8192, 1]⟩ : Shape).Idx → EReal)
    (b : (⟨2, ![1, 64]⟩ : Shape).Idx → EReal) (p : Fin 8192) (k : Fin 64) : EReal :=
  a (ix2 p k) * t (ix2 p 0) + b (ix2 0 k)

/-- Entry `(p,q)` of the decoder: the logistic function of the inner product of rows `p` and `q` of the embedding. -/
def dec (a : (⟨2, ![8192, 64]⟩ : Shape).Idx → EReal) (t : (⟨2, ![8192, 1]⟩ : Shape).Idx → EReal)
    (b : (⟨2, ![1, 64]⟩ : Shape).Idx → EReal) (p q : Fin 8192) : EReal :=
  Ideal.logistic (∑ k : Fin 64, emb a t b p k * emb a t b q k)

end Cert.Gcn

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.LibMatLayout.lean ====
/-
  Two matrix layout facts, for any element type and any extents: the offsets of a rectangle that starts at a matrix's
  origin are the zero function (zero_off2), and the transpose of an [a, b] matrix read at (k, q) is the matrix at
  (q, k) (transpose_ab_ba_apply).
-/
import Idealize.ShloMosaic.Lib.Pipeline.Value
import Idealize.ShloMosaic.Lib.ValueIdx

namespace Cert.LibMatLayout

open Idealize.ShloMosaic Idealize.ShloMosaic.ValueIdx

/-- The offsets of a rectangle that starts at the origin of a matrix. -/
theorem zero_off2 : (![0, 0] : Fin 2 → Nat) = fun _ => 0 := funext fun a => by fin_cases a <;> rfl

/-- The transpose of a matrix `[a, b]` reads, at `(k, q)`, the matrix at `(q, k)`. -/
theorem transpose_ab_ba_apply {α : Type} {a b : ℕ} (x : (⟨2, ![a, b]⟩ : Shape).Idx → α)
    (h : (⟨2, ![a, b]⟩ : Shape).Transposes [1, 0] ⟨2, ![b, a]⟩) (k : Fin b) (q : Fin a) :
    transpose ⟨2, ![b, a]⟩ [1, 0] x h (ix2 k q) = x (ix2 q k) := by
  refine transpose_apply [1, 0] x h (ix2 k q) (ix2 q k) fun ax => ?_
  match ax with
  | ⟨0, _⟩ => rfl
  | ⟨1, _⟩ => rfl

end Cert.LibMatLayout
-- ==== Proof.KI.Val0.lean ====
/-
  Call 0 at the extended reals: the output array after the call's last grid point is, entry by entry, the first
  layer's scaled product of the arrays the call is entered with.
-/
import proofs.«100454_j32100585570938_2_alg».proof.Proof.KI.Dats
import proofs.«100454_j32100585570938_2_alg».proof.Proof.Spec
import proofs.«100454_j32100585570938_2_alg».proof.Proof.LibDot
import proofs.«100454_j32100585570938_2_alg».proof.Proof.LibKeepdims
import proofs.«100454_j32100585570938_2_alg».proof.Proof.LibMatLayout
import Idealize.ShloMosaic.Lib.Pipeline.Value
import Idealize.ShloMosaic.Lib.ValueIdx

set_option maxRecDepth 16384

noncomputable section

namespace Cert.KernelIdeal.Hand

open Cert.LibMatLayout

open Idealize.ShloMosaic Idealize.ShloMosaic.TcCoe Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! ## Call 0: the band's stored value, entry by entry -/

theorem dot0_eq : dot_S1024x512_S512x256_S1024x256_1_0_0_1_n_n = Cert.LibDot.dims dot_S1024x512_S512x256_S1024x256_1_0_0_1_n_n_wf := rfl

/-- The body's stored value at row r, column s: the product's entry scaled by the row's factor. -/
theorem pay0_apply (x0 : Vec Ideal S1024x512 .f32) (x1 : Vec Ideal S512x256 .f32) (x2 : Vec Ideal S1024x1 .f32)
    (r : Fin 1024) (s : Fin 256) :
    k0_pay1 (F := Ideal) x0 x1 x2 (ix2 r s) = (∑ k : Fin 512, x0 (ix2 r k) * x1 (ix2 k s)) * x2 (ix2 r (0 : Fin 1)) := by
  unfold k0_pay1
  rw [mulf_apply, shapeCast_self, dot0_eq]
  rw [Cert.LibDot.matmul_zero_apply, broadcastTo_a1_ab_apply]
  rfl

/-- When the three blocks are rows n·1024 … of the arrays (the weights whole), the stored value at an entry of the band
    is the first layer's scaled product at the corresponding entry of the array. -/
theorem band0_apply (A0 : S8192x512.Idx → EReal) (A1 : S512x256.Idx → EReal) (A2 : S8192x1.Idx → EReal)
    (x0 : Vec Ideal S1024x512 .f32) (x1 : Vec Ideal S512x256 .f32) (x2 : Vec Ideal S1024x1 .f32) (n : ℕ)
    (h0 : ∀ (y : S1024x512.Idx) (i : S8192x512.Idx), (i 0).val = n * 1024 + (y 0).val → (i 1).val = (y 1).val → x0 y = A0 i)
    (h1 : ∀ y : S512x256.Idx, x1 y = A1 y)
    (h2 : ∀ (y : S1024x1.Idx) (i : S8192x1.Idx), (i 0).val = n * 1024 + (y 0).val → x2 y = A2 i)
    (y : S1024x256.Idx) (i : S8192x256.Idx) (hi0 : (i 0).val = n * 1024 + (y 0).val) (hi1 : (i 1).val = (y 1).val) :
    k0_pay1 (F := Ideal) x0 x1 x2 y = Cert.Gcn.lin1 A0 A1 A2 (i 0) (i 1) := by
  obtain ⟨r, s, rfl⟩ : ∃ (r : Fin 1024) (s : Fin 256), y = ix2 r s := ⟨y 0, y 1, eq_ix2 y⟩
  obtain ⟨p, q, rfl⟩ : ∃ (p : Fin 8192) (q : Fin 256), i = ix2 p q := ⟨i 0, i 1, eq_ix2 i⟩
  have hp : p.val = n * 1024 + r.val := hi0
  obtain rfl : q = s := Fin.ext hi1
  rw [pay0_apply]
  show _ = (∑ k : Fin 512, A0 (ix2 p k) * A1 (ix2 k q)) * A2 (ix2 p 0)
  rw [h2 (ix2 r 0) (ix2 p 0) hp]
  refine congrArg (· * _) (Finset.sum_congr rfl fun k _ => ?_)
  rw [h0 (ix2 r k) (ix2 p k) hp rfl, h1]

/-! ## Call 0: from blocks to the array -/

/-- The printed index maps, decided over the grid: the three banded windows sit at block row t, the weights at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What the output array of call 0 ends holding: the first layer's scaled product of the arrays the call is entered with. -/
def G0 (c : Dev nD) : S8192x256.Idx → EReal :=
  fun j => Cert.Gcn.lin1 (V c main_arg0) (V c main_arg3) (V c main_v15) (j 0) (j 1)

theorem iblk0_0_apply (c : Dev nD) (t : Fin cfg0.N) (y : S1024x512.Idx) (i : S8192x512.Idx)
    (h0 : (i 0).val = t.val * 1024 + (y 0).val) (h1 : (i 1).val = (y 1).val) :
    (iblk0 V c 0 t : Vec Ideal S1024x512 .f32) y = (V c main_arg0 : S8192x512.Idx → EReal) i := by
  obtain ⟨e0, e1, -⟩ := idx_facts0 t
  unfold iblk0
  rw [View.read_apply]
  show V c main_arg0 _ = V c main_arg0 _
  refine congrArg _ (funext fun a => Fin.ext ?_)
  match a with
  | ⟨0, _⟩ => show win0_0.index t 0 * 1024 + 1 * (y 0).val = (i 0).val; omega
  | ⟨1, _⟩ => show win0_0.index t 1 * 512 + 1 * (y 1).val = (i 1).val; omega

theorem iblk0_1_apply (c : Dev nD) (t : Fin cfg0.N) (y : S512x256.Idx) :
    (iblk0 V c 1 t : Vec Ideal S512x256 .f32) y = (V c main_arg3 : S512x256.Idx → EReal) y := by
  obtain ⟨-, -, e0, e1, -⟩ := idx_facts0 t
  unfold iblk0
  rw [View.read_apply]
  show V c main_arg3 _ = V c main_arg3 _
  refine congrArg _ (funext fun a => Fin.ext ?_)
  match a with
  | ⟨0, _⟩ => show win0_1.index t 0 * 512 + 1 * (y 0).val = (y 0).val; omega
  | ⟨1, _⟩ => show win0_1.index t 1 * 256 + 1 * (y 1).val = (y 1).val; omega

theorem iblk0_2_apply (c : Dev nD) (t : Fin cfg0.N) (y : S1024x1.Idx) (i : S8192x1.Idx)
    (h0 : (i 0).val = t.val * 1024 + (y 0).val) :
    (iblk0 V c 2 t : Vec Ideal S1024x1 .f32) y = (V c main_v15 : S8192x1.Idx → EReal) i := by
  obtain ⟨-, -, -, -, e0, e1, -⟩ := idx_facts0 t
  unfold iblk0
  rw [View.read_apply]
  show V c main_v15 _ = V c main_v15 _
  refine congrArg _ (funext fun a => Fin.ext ?_)
  match a with
  | ⟨0, _⟩ => show win0_2.index t 0 * 1024 + 1 * (y 0).val = (i 0).val; omega
  | ⟨1, _⟩ => show win0_2.index t 1 * 1 + 1 * (y 1).val = (i 1).val; have hy : (y 1).val < 1 := (y 1).isLt; have hi : (i 1).val < 1 := (i 1).isLt; omega

/-- What point t writes back is block t of G0. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero zero_off2]
  simp only [View.ld_unit_zero (S := S1024x512) zero_off2, View.ld_unit_zero (S := S512x256) zero_off2, View.ld_unit_zero (S := S1024x1) zero_off2]
  obtain ⟨-, -, -, -, -, -, e0, e1⟩ := idx_facts0 t
  funext j
  rw [View.read_apply]
  refine band0_apply (V c main_arg0) (V c main_arg3) (V c main_v15) (iblk0 V c 0 t) (iblk0 V c 1 t) (iblk0 V c 2 t) t.val
    (fun y i h0 h1 => iblk0_0_apply V c t y i h0 h1) (fun y => iblk0_1_apply V c t y) (fun y i h0 => iblk0_2_apply V c t y i h0)
    _ (((cfg0.win 3).blk t).view.emb j) ?_ ?_
  · show win0_3.index t 0 * 1024 + 1 * (j 0).val = t.val * 1024 + (j 0).val; omega
  · show win0_3.index t 1 * 256 + 1 * (j 1).val = (j 1).val; omega

/-- An index of the array is in point t's block iff each coordinate is in the block's range on its axis. -/
theorem mem_blk0 (t : Fin cfg0.N) (i : S8192x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v17).slice (win0_3.rect t)).set ↔ _
  rw [View.set_slice_whole, Rect.mem_set_unit]
  exact Iff.rfl

/-- Row r of the array is written by point r / 1024. -/
theorem cover0 (i : S8192x256.Idx) : ∃ t : Fin cfg0.N, (cfg0.win 3).flush t = true ∧ i ∈ ((cfg0.win 3).blk t).view.set := by
  have hi0 : (i 0).val < 8192 := (i 0).isLt
  have hi1 : (i 1).val < 256 := (i 1).isLt
  have hN : cfg0.N = 8 := N_0
  let t : Fin cfg0.N := ⟨(i 0).val / 1024, by rw [hN]; omega⟩
  have ht : t.val = (i 0).val / 1024 := rfl
  obtain ⟨-, -, -, -, -, -, e0, e1⟩ := idx_facts0 t
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

/-- The output array after call 0's last point. -/
theorem final0 (c : Dev nD) : (dat0 (F := Ideal) V c).arrAt 3 cfg0.N = G0 V c :=
  (dat0 V c).arrAt_eq_of_cover 3 (G0 V c) (fun t _ => flushed0_eq V c t) cover0

theorem val0 (c : Dev nD) (p : Fin 8192) (q : Fin 256) :
    (dat0 (F := Ideal) V c).arrAt 3 cfg0.N (ValueIdx.ix2 p q) = Cert.Gcn.lin1 (V c main_arg0) (V c main_arg3) (V c main_v15) p q := by
  rw [final0]
  rfl

end Cert.KernelIdeal.Hand

end
-- ==== Proof.KI.Val1.lean ====
/-
  Call 1 at the extended reals: the output array after the call's last grid point is, entry by entry, the second
  layer's scaled product (the hidden layer's rows against the weights) of the arrays the call is entered with.
-/
import proofs.«100454_j32100585570938_2_alg».proof.Proof.KI.Dats
import proofs.«100454_j32100585570938_2_alg».proof.Proof.Spec
import proofs.«100454_j32100585570938_2_alg».proof.Proof.LibDot
import proofs.«100454_j32100585570938_2_alg».proof.Proof.LibKeepdims
import proofs.«100454_j32100585570938_2_alg».proof.Proof.LibMatLayout
import Idealize.ShloMosaic.Lib.Pipeline.Value
import Idealize.ShloMosaic.Lib.ValueIdx

set_option maxRecDepth 16384

noncomputable section

namespace Cert.KernelIdeal.Hand

open Cert.LibMatLayout

open Idealize.ShloMosaic Idealize.ShloMosaic.TcCoe Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! ## Call 1: the band's stored value, entry by entry -/

theorem dot1_eq : dot_S1024x256_S256x64_S1024x64_1_0_0_1_n_n = Cert.LibDot.dims dot_S1024x256_S256x64_S1024x64_1_0_0_1_n_n_wf := rfl

/-- The body's stored value at row r, column s: the hidden layer's row r against column s of the weights, scaled by the
    row's factor. -/
theorem pay1_apply (x0 : Vec Ideal S1024x256 .f32) (x1 : Vec Ideal S1024x1 .f32) (x2 : Vec Ideal S1x256 .f32)
    (x3 : Vec Ideal S256x64 .f32) (x4 : Vec Ideal S1024x1 .f32) (r : Fin 1024) (s : Fin 64) :
    k1_pay1 (F := Ideal) x0 x1 x2 x3 x4 (ix2 r s)
      = (∑ k : Fin 256, max (x0 (ix2 r k) * x1 (ix2 r (0 : Fin 1)) + x2 (ix2 (0 : Fin 1) k)) (Ideal.ofBits .f32 0x00000000#32)
            * x3 (ix2 k s)) * x4 (ix2 r (0 : Fin 1)) := by
  unfold k1_pay1
  rw [mulf_apply, dot1_eq, Cert.LibDot.matmul_zero_apply]
  simp only [shapeCast_self]
  rw [broadcastTo_a1_ab_apply]
  refine congrArg (· * _) (Finset.sum_congr rfl fun k _ => ?_)
  rw [truncf_apply, truncf_apply, maximumf_apply, addf_apply, mulf_apply, broadcastTo_a1_ab_apply, broadcastTo_1b_ab_apply]
  rfl

/-- When the banded blocks are rows n·1024 … of their arrays (the bias row and the weights whole), the stored value at an
    entry of the band is the second layer's scaled product at the corresponding entry of the array. -/
theorem band1_apply (A0 : S8192x256.Idx → EReal) (A1 : S8192x1.Idx → EReal) (A2 : S1x256.Idx → EReal)
    (A3 : S256x64.Idx → EReal) (A4 : S8192x1.Idx → EReal)
    (x0 : Vec Ideal S1024x256 .f32) (x1 : Vec Ideal S1024x1 .f32) (x2 : Vec Ideal S1x256 .f32)
    (x3 : Vec Ideal S256x64 .f32) (x4 : Vec Ideal S1024x1 .f32) (n : ℕ)
    (h0 : ∀ (y : S1024x256.Idx) (i : S8192x256.Idx), (i 0).val = n * 1024 + (y 0).val → (i 1).val = (y 1).val → x0 y = A0 i)
    (h1 : ∀ (y : S1024x1.Idx) (i : S8192x1.Idx), (i 0).val = n * 1024 + (y 0).val → x1 y = A1 i)
    (h2 : ∀ y : S1x256.Idx, x2 y = A2 y)
    (h3 : ∀ y : S256x64.Idx, x3 y = A3 y)
    (h4 : ∀ (y : S1024x1.Idx) (i : S8192x1.Idx), (i 0).val = n * 1024 + (y 0).val → x4 y = A4 i)
    (y : S1024x64.Idx) (i : S8192x64.Idx) (hi0 : (i 0).val = n * 1024 + (y 0).val) (hi1 : (i 1).val = (y 1).val) :
    k1_pay1 (F := Ideal) x0 x1 x2 x3 x4 y = Cert.Gcn.lin2 A0 A1 A2 A3 A4 (i 0) (i 1) := by
  obtain ⟨r, s, rfl⟩ : ∃ (r : Fin 1024) (s : Fin 64), y = ix2 r s := ⟨y 0, y 1, eq_ix2 y⟩
  obtain ⟨p, q, rfl⟩ : ∃ (p : Fin 8192) (q : Fin 64), i = ix2 p q := ⟨i 0, i 1, eq_ix2 i⟩
  have hp : p.val = n * 1024 + r.val := hi0
  obtain rfl : q = s := Fin.ext hi1
  rw [pay1_apply]
  show _ = (∑ k : Fin 256, max (A0 (ix2 p k) * A1 (ix2 p 0) + A2 (ix2 0 k)) (Ideal.ofBits .f32 0x00000000#32) * A3 (ix2 k q)) * A4 (ix2 p 0)
  rw [h4 (ix2 r 0) (ix2 p 0) hp, h1 (ix2 r 0) (ix2 p 0) hp]
  refine congrArg (· * _) (Finset.sum_congr rfl fun k _ => ?_)
  rw [h0 (ix2 r k) (ix2 p k) hp rfl, h2, h3]

/-! ## Call 1: from blocks to the array -/

/-- The printed index maps, decided over the grid: the four banded windows sit at block row t, the bias row and the
    weights at block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- What the output array of call 1 ends holding: the second layer's scaled product of the arrays the call is entered with. -/
def G1 (c : Dev nD) : S8192x64.Idx → EReal :=
  fun j => Cert.Gcn.lin2 (V c main_v27) (V c main_v16) (V c main_v28) (V c main_arg5) (V c main_v15) (j 0) (j 1)

theorem iblk1_0_apply (c : Dev nD) (t : Fin cfg1.N) (y : S1024x256.Idx) (i : S8192x256.Idx)
    (h0 : (i 0).val = t.val * 1024 + (y 0).val) (h1 : (i 1).val = (y 1).val) :
    (iblk1 V c 0 t : Vec Ideal S1024x256 .f32) y = (V c main_v27 : S8192x256.Idx → EReal) i := by
  obtain ⟨e0, e1, -⟩ := idx_facts1 t
  unfold iblk1
  rw [View.read_apply]
  show V c main_v27 _ = V c main_v27 _
  refine congrArg _ (funext fun a => Fin.ext ?_)
  match a with
  | ⟨0, _⟩ => show win1_0.index t 0 * 1024 + 1 * (y 0).val = (i 0).val; omega
  | ⟨1, _⟩ => show win1_0.index t 1 * 256 + 1 * (y 1).val = (i 1).val; omega

theorem iblk1_1_apply (c : Dev nD) (t : Fin cfg1.N) (y : S1024x1.Idx) (i : S8192x1.Idx)
    (h0 : (i 0).val = t.val * 1024 + (y 0).val) :
    (iblk1 V c 1 t : Vec Ideal S1024x1 .f32) y = (V c main_v16 : S8192x1.Idx → EReal) i := by
  obtain ⟨-, -, e0, e1, -⟩ := idx_facts1 t
  unfold iblk1
  rw [View.read_apply]
  show V c main_v16 _ = V c main_v16 _
  refine congrArg _ (funext fun a => Fin.ext ?_)
  match a with
  | ⟨0, _⟩ => show win1_1.index t 0 * 1024 + 1 * (y 0).val = (i 0).val; omega
  | ⟨1, _⟩ => show win1_1.index t 1 * 1 + 1 * (y 1).val = (i 1).val; have hy : (y 1).val < 1 := (y 1).isLt; have hi : (i 1).val < 1 := (i 1).isLt; omega

theorem iblk1_2_apply (c : Dev nD) (t : Fin cfg1.N) (y : S1x256.Idx) :
    (iblk1 V c 2 t : Vec Ideal S1x256 .f32) y = (V c main_v28 : S1x256.Idx → EReal) y := by
  obtain ⟨-, -, -, -, e0, e1, -⟩ := idx_facts1 t
  unfold iblk1
  rw [View.read_apply]
  show V c main_v28 _ = V c main_v28 _
  refine congrArg _ (funext fun a => Fin.ext ?_)
  match a with
  | ⟨0, _⟩ => show win1_2.index t 0 * 1 + 1 * (y 0).val = (y 0).val; omega
  | ⟨1, _⟩ => show win1_2.index t 1 * 256 + 1 * (y 1).val = (y 1).val; omega

theorem iblk1_3_apply (c : Dev nD) (t : Fin cfg1.N) (y : S256x64.Idx) :
    (iblk1 V c 3 t : Vec Ideal S256x64 .f32) y = (V c main_arg5 : S256x64.Idx → EReal) y := by
  obtain ⟨-, -, -, -, -, -, e0, e1, -⟩ := idx_facts1 t
  unfold iblk1
  rw [View.read_apply]
  show V c main_arg5 _ = V c main_arg5 _
  refine congrArg _ (funext fun a => Fin.ext ?_)
  match a with
  | ⟨0, _⟩ => show win1_3.index t 0 * 256 + 1 * (y 0).val = (y 0).val; omega
  | ⟨1, _⟩ => show win1_3.index t 1 * 64 + 1 * (y 1).val = (y 1).val; omega

theorem iblk1_4_apply (c : Dev nD) (t : Fin cfg1.N) (y : S1024x1.Idx) (i : S8192x1.Idx)
    (h0 : (i 0).val = t.val * 1024 + (y 0).val) :
    (iblk1 V c 4 t : Vec Ideal S1024x1 .f32) y = (V c main_v15 : S8192x1.Idx → EReal) i := by
  obtain ⟨-, -, -, -, -, -, -, -, e0, e1, -⟩ := idx_facts1 t
  unfold iblk1
  rw [View.read_apply]
  show V c main_v15 _ = V c main_v15 _
  refine congrArg _ (funext fun a => Fin.ext ?_)
  match a with
  | ⟨0, _⟩ => show win1_4.index t 0 * 1024 + 1 * (y 0).val = (i 0).val; omega
  | ⟨1, _⟩ => show win1_4.index t 1 * 1 + 1 * (y 1).val = (i 1).val; have hy : (y 1).val < 1 := (y 1).isLt; have hi : (i 1).val < 1 := (i 1).isLt; omega

/-- What point t writes back is block t of G1. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero zero_off2]
  simp only [View.ld_unit_zero (S := S1024x256) zero_off2, View.ld_unit_zero (S := S1024x1) zero_off2,
    View.ld_unit_zero (S := S1x256) zero_off2, View.ld_unit_zero (S := S256x64) zero_off2]
  obtain ⟨-, -, -, -, -, -, -, -, -, -, e0, e1⟩ := idx_facts1 t
  funext j
  rw [View.read_apply]
  refine band1_apply (V c main_v27) (V c main_v16) (V c main_v28) (V c main_arg5) (V c main_v15)
    (iblk1 V c 0 t) (iblk1 V c 1 t) (iblk1 V c 2 t) (iblk1 V c 3 t) (iblk1 V c 4 t) t.val
    (fun y i h0 h1 => iblk1_0_apply V c t y i h0 h1) (fun y i h0 => iblk1_1_apply V c t y i h0)
    (fun y => iblk1_2_apply V c t y) (fun y => iblk1_3_apply V c t y) (fun y i h0 => iblk1_4_apply V c t y i h0)
    _ (((cfg1.win 5).blk t).view.emb j) ?_ ?_
  · show win1_5.index t 0 * 1024 + 1 * (j 0).val = t.val * 1024 + (j 0).val; omega
  · show win1_5.index t 1 * 64 + 1 * (j 1).val = (j 1).val; omega

/-- An index of the array is in point t's block iff each coordinate is in the block's range on its axis. -/
theorem mem_blk1 (t : Fin cfg1.N) (i : S8192x64.Idx) :
    i ∈ ((cfg1.win 5).blk t).view.set ↔ ∀ a : Fin 2, win1_5.index t a * S1024x64.size a ≤ (i a).val ∧ (i a).val < win1_5.index t a * S1024x64.size a + S1024x64.size a := by
  show i ∈ ((View.whole main_v29).slice (win1_5.rect t)).set ↔ _
  rw [View.set_slice_whole, Rect.mem_set_unit]
  exact Iff.rfl

/-- Row r of the array is written by point r / 1024. -/
theorem cover1 (i : S8192x64.Idx) : ∃ t : Fin cfg1.N, (cfg1.win 5).flush t = true ∧ i ∈ ((cfg1.win 5).blk t).view.set := by
  have hi0 : (i 0).val < 8192 := (i 0).isLt
  have hi1 : (i 1).val < 64 := (i 1).isLt
  have hN : cfg1.N = 8 := N_1
  let t : Fin cfg1.N := ⟨(i 0).val / 1024, by rw [hN]; omega⟩
  have ht : t.val = (i 0).val / 1024 := rfl
  obtain ⟨-, -, -, -, -, -, -, -, -, -, e0, e1⟩ := idx_facts1 t
  refine ⟨t, flush1_5 t, ?_⟩
  rw [mem_blk1]
  intro a
  match a with
  | ⟨0, _⟩ => show win1_5.index t (0 : Fin 2) * 1024 ≤ (i 0).val ∧ (i 0).val < win1_5.index t (0 : Fin 2) * 1024 + 1024; omega
  | ⟨1, _⟩ => show win1_5.index t (1 : Fin 2) * 64 ≤ (i 1).val ∧ (i 1).val < win1_5.index t (1 : Fin 2) * 64 + 64; omega

/-- The output array after call 1's last point. -/
theorem final1 (c : Dev nD) : (dat1 (F := Ideal) V c).arrAt 5 cfg1.N = G1 V c :=
  (dat1 V c).arrAt_eq_of_cover 5 (G1 V c) (fun t _ => flushed1_eq V c t) cover1

theorem val1 (c : Dev nD) (p : Fin 8192) (q : Fin 64) :
    (dat1 (F := Ideal) V c).arrAt 5 cfg1.N (ValueIdx.ix2 p q)
      = Cert.Gcn.lin2 (V c main_v27) (V c main_v16) (V c main_v28) (V c main_arg5) (V c main_v15) p q := by
  rw [final1]
  rfl

end Cert.KernelIdeal.Hand

end
-- ==== Proof.KI.Val2.lean ====
/-
  Call 2 at the extended reals: the output array after the call's last grid point is, entry by entry, the decoder's
  logistic inner product of the rows of the embedding built from the arrays the call is entered with.
-/
import proofs.«100454_j32100585570938_2_alg».proof.Proof.KI.Dats
import proofs.«100454_j32100585570938_2_alg».proof.Proof.Spec
import proofs.«100454_j32100585570938_2_alg».proof.Proof.LibDot
import proofs.«100454_j32100585570938_2_alg».proof.Proof.LibKeepdims
import proofs.«100454_j32100585570938_2_alg».proof.Proof.LibMatLayout
import Idealize.ShloMosaic.Lib.Pipeline.Value
import Idealize.ShloMosaic.Lib.ValueIdx

set_option maxRecDepth 16384

noncomputable section

namespace Cert.KernelIdeal.Hand

open Cert.LibMatLayout

open Idealize.ShloMosaic Idealize.ShloMosaic.TcCoe Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! ## Call 2: the tile's stored value, entry by entry -/

theorem dot2_eq : dot_S2048x64_S64x1024_S2048x1024_1_0_0_1_n_n = Cert.LibDot.dims dot_S2048x64_S64x1024_S2048x1024_1_0_0_1_n_n_wf := rfl

/-- The body's stored value at row r, column s of the tile: the logistic function of the inner product of row r of the
    first band and row s of the second, each row scaled by its factor and shifted by the bias row. -/
theorem pay2_apply (x0 : Vec Ideal S2048x64 .f32) (x2 : Vec Ideal S2048x1 .f32) (x4 : Vec Ideal S1x64 .f32)
    (x1 : Vec Ideal S1024x64 .f32) (x3 : Vec Ideal S1024x1 .f32) (x5 : Vec Ideal S1x64 .f32) (r : Fin 2048) (s : Fin 1024) :
    k2_pay1 (F := Ideal) x0 x2 x4 x1 x3 x5 (ix2 r s)
      = Ideal.logistic (∑ k : Fin 64, (x0 (ix2 r k) * x2 (ix2 r (0 : Fin 1)) + x4 (ix2 (0 : Fin 1) k))
          * (x1 (ix2 s k) * x3 (ix2 s (0 : Fin 1)) + x5 (ix2 (0 : Fin 1) k))) := by
  unfold k2_pay1
  show Ideal.logistic _ = _
  refine congrArg Ideal.logistic ?_
  rw [dot2_eq, Cert.LibDot.matmul_zero_apply]
  refine Finset.sum_congr rfl fun k _ => ?_
  rw [transpose_ab_ba_apply]
  simp only [truncf_apply, addf_apply, mulf_apply, shapeCast_self, broadcastTo_a1_ab_apply, broadcastTo_1b_ab_apply]

/-- When the five blocks are rows m·2048 … and rows n·1024 … of the two arrays (the bias row whole), the stored value at
    an entry of the tile is the decoder's value at the corresponding entry of the array. -/
theorem tile2_apply (A : S8192x64.Idx → EReal) (T : S8192x1.Idx → EReal) (B : S1x64.Idx → EReal)
    (x0 : Vec Ideal S2048x64 .f32) (x1 : Vec Ideal S1024x64 .f32) (x2 : Vec Ideal S2048x1 .f32) (x3 : Vec Ideal S1024x1 .f32)
    (x4 : Vec Ideal S1x64 .f32) (m n : ℕ)
    (h0 : ∀ (y : S2048x64.Idx) (i : S8192x64.Idx), (i 0).val = m * 2048 + (y 0).val → (i 1).val = (y 1).val → x0 y = A i)
    (h1 : ∀ (y : S1024x64.Idx) (i : S8192x64.Idx), (i 0).val = n * 1024 + (y 0).val → (i 1).val = (y 1).val → x1 y = A i)
    (h2 : ∀ (y : S2048x1.Idx) (i : S8192x1.Idx), (i 0).val = m * 2048 + (y 0).val → x2 y = T i)
    (h3 : ∀ (y : S1024x1.Idx) (i : S8192x1.Idx), (i 0).val = n * 1024 + (y 0).val → x3 y = T i)
    (h4 : ∀ y : S1x64.Idx, x4 y = B y)
    (y : S2048x1024.Idx) (i : S8192x8192.Idx) (hi0 : (i 0).val = m * 2048 + (y 0).val) (hi1 : (i 1).val = n * 1024 + (y 1).val) :
    k2_pay1 (F := Ideal) x0 x2 x4 x1 x3 x4 y = Cert.Gcn.dec A T B (i 0) (i 1) := by
  obtain ⟨r, s, rfl⟩ : ∃ (r : Fin 2048) (s : Fin 1024), y = ix2 r s := ⟨y 0, y 1, eq_ix2 y⟩
  obtain ⟨p, q, rfl⟩ : ∃ (p : Fin 8192) (q : Fin 8192), i = ix2 p q := ⟨i 0, i 1, eq_ix2 i⟩
  have hp : p.val = m * 2048 + r.val := hi0
  have hq : q.val = n * 1024 + s.val := hi1
  rw [pay2_apply]
  show _ = Ideal.logistic (∑ k : Fin 64, (A (ix2 p k) * T (ix2 p (0 : Fin 1)) + B (ix2 (0 : Fin 1) k))
    * (A (ix2 q k) * T (ix2 q (0 : Fin 1)) + B (ix2 (0 : Fin 1) k)))
  refine congrArg Ideal.logistic (Finset.sum_congr rfl fun k _ => ?_)
  rw [h0 (ix2 r k) (ix2 p k) hp rfl, h2 (ix2 r 0) (ix2 p 0) hp, h1 (ix2 s k) (ix2 q k) hq rfl, h3 (ix2 s 0) (ix2 q 0) hq, h4]

/-! ## Call 2: from blocks to the array -/

/-- The printed index maps, decided over the grid of 4 by 8 points: the point t has coordinates (t / 8, t % 8); the
    first band and its factors sit at block row t / 8, the second band and its factors at block row t % 8, the bias
    row at block 0, and the output tile at block (t / 8, t % 8). -/
theorem idx_facts2 : ∀ t : Fin cfg2.N, win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = t.val % 8 ∧ win2_3.index t (1 : Fin 2) = 0
    ∧ win2_4.index t (0 : Fin 2) = 0 ∧ win2_4.index t (1 : Fin 2) = 0
    ∧ win2_5.index t (0 : Fin 2) = t.val / 8 ∧ win2_5.index t (1 : Fin 2) = t.val % 8 :=
  (by decide +kernel : ∀ t : Fin grid2.N, _)

/-- What the output array of call 2 ends holding: the decoder of the arrays the call is entered with. -/
def G2 (c : Dev nD) : S8192x8192.Idx → EReal :=
  fun j => Cert.Gcn.dec (V c main_v39) (V c main_v16) (V c main_v40) (j 0) (j 1)

theorem iblk2_0_apply (c : Dev nD) (t : Fin cfg2.N) (y : S2048x64.Idx) (i : S8192x64.Idx)
    (h0 : (i 0).val = t.val / 8 * 2048 + (y 0).val) (h1 : (i 1).val = (y 1).val) :
    (iblk2 V c 0 t : Vec Ideal S2048x64 .f32) y = (V c main_v39 : S8192x64.Idx → EReal) i := by
  obtain ⟨e0, e1, -⟩ := idx_facts2 t
  unfold iblk2
  rw [View.read_apply]
  show V c main_v39 _ = V c main_v39 _
  refine congrArg _ (funext fun a => Fin.ext ?_)
  match a with
  | ⟨0, _⟩ => show win2_0.index t 0 * 2048 + 1 * (y 0).val = (i 0).val; omega
  | ⟨1, _⟩ => show win2_0.index t 1 * 64 + 1 * (y 1).val = (i 1).val; omega

theorem iblk2_1_apply (c : Dev nD) (t : Fin cfg2.N) (y : S1024x64.Idx) (i : S8192x64.Idx)
    (h0 : (i 0).val = t.val % 8 * 1024 + (y 0).val) (h1 : (i 1).val = (y 1).val) :
    (iblk2 V c 1 t : Vec Ideal S1024x64 .f32) y = (V c main_v39 : S8192x64.Idx → EReal) i := by
  obtain ⟨-, -, e0, e1, -⟩ := idx_facts2 t
  unfold iblk2
  rw [View.read_apply]
  show V c main_v39 _ = V c main_v39 _
  refine congrArg _ (funext fun a => Fin.ext ?_)
  match a with
  | ⟨0, _⟩ => show win2_1.index t 0 * 1024 + 1 * (y 0).val = (i 0).val; omega
  | ⟨1, _⟩ => show win2_1.index t 1 * 64 + 1 * (y 1).val = (i 1).val; omega

theorem iblk2_2_apply (c : Dev nD) (t : Fin cfg2.N) (y : S2048x1.Idx) (i : S8192x1.Idx)
    (h0 : (i 0).val = t.val / 8 * 2048 + (y 0).val) :
    (iblk2 V c 2 t : Vec Ideal S2048x1 .f32) y = (V c main_v16 : S8192x1.Idx → EReal) i := by
  obtain ⟨-, -, -, -, e0, e1, -⟩ := idx_facts2 t
  unfold iblk2
  rw [View.read_apply]
  show V c main_v16 _ = V c main_v16 _
  refine congrArg _ (funext fun a => Fin.ext ?_)
  match a with
  | ⟨0, _⟩ => show win2_2.index t 0 * 2048 + 1 * (y 0).val = (i 0).val; omega
  | ⟨1, _⟩ => show win2_2.index t 1 * 1 + 1 * (y 1).val = (i 1).val; have hy : (y 1).val < 1 := (y 1).isLt; have hi : (i 1).val < 1 := (i 1).isLt; omega

theorem iblk2_3_apply (c : Dev nD) (t : Fin cfg2.N) (y : S1024x1.Idx) (i : S8192x1.Idx)
    (h0 : (i 0).val = t.val % 8 * 1024 + (y 0).val) :
    (iblk2 V c 3 t : Vec Ideal S1024x1 .f32) y = (V c main_v16 : S8192x1.Idx → EReal) i := by
  obtain ⟨-, -, -, -, -, -, e0, e1, -⟩ := idx_facts2 t
  unfold iblk2
  rw [View.read_apply]
  show V c main_v16 _ = V c main_v16 _
  refine congrArg _ (funext fun a => Fin.ext ?_)
  match a with
  | ⟨0, _⟩ => show win2_3.index t 0 * 1024 + 1 * (y 0).val = (i 0).val; omega
  | ⟨1, _⟩ => show win2_3.index t 1 * 1 + 1 * (y 1).val = (i 1).val; have hy : (y 1).val < 1 := (y 1).isLt; have hi : (i 1).val < 1 := (i 1).isLt; omega

theorem iblk2_4_apply (c : Dev nD) (t : Fin cfg2.N) (y : S1x64.Idx) :
    (iblk2 V c 4 t : Vec Ideal S1x64 .f32) y = (V c main_v40 : S1x64.Idx → EReal) y := by
  obtain ⟨-, -, -, -, -, -, -, -, e0, e1, -⟩ := idx_facts2 t
  unfold iblk2
  rw [View.read_apply]
  show V c main_v40 _ = V c main_v40 _
  refine congrArg _ (funext fun a => Fin.ext ?_)
  match a with
  | ⟨0, _⟩ => show win2_4.index t 0 * 1 + 1 * (y 0).val = (y 0).val; omega
  | ⟨1, _⟩ => show win2_4.index t 1 * 64 + 1 * (y 1).val = (y 1).val; omega

/-- What point t writes back is block t of G2. -/
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  unfold out2_5
  rw [View.canon_unit_zero zero_off2]
  simp only [View.ld_unit_zero (S := S2048x64) zero_off2, View.ld_unit_zero (S := S1024x64) zero_off2,
    View.ld_unit_zero (S := S2048x1) zero_off2, View.ld_unit_zero (S := S1024x1) zero_off2, View.ld_unit_zero (S := S1x64) zero_off2]
  obtain ⟨-, -, -, -, -, -, -, -, -, -, e0, e1⟩ := idx_facts2 t
  funext j
  rw [View.read_apply]
  refine tile2_apply (V c main_v39) (V c main_v16) (V c main_v40) (iblk2 V c 0 t) (iblk2 V c 1 t) (iblk2 V c 2 t) (iblk2 V c 3 t)
    (iblk2 V c 4 t) (t.val / 8) (t.val % 8)
    (fun y i h0 h1 => iblk2_0_apply V c t y i h0 h1) (fun y i h0 h1 => iblk2_1_apply V c t y i h0 h1)
    (fun y i h0 => iblk2_2_apply V c t y i h0) (fun y i h0 => iblk2_3_apply V c t y i h0) (fun y => iblk2_4_apply V c t y)
    _ (((cfg2.win 5).blk t).view.emb j) ?_ ?_
  · show win2_5.index t 0 * 2048 + 1 * (j 0).val = t.val / 8 * 2048 + (j 0).val; omega
  · show win2_5.index t 1 * 1024 + 1 * (j 1).val = t.val % 8 * 1024 + (j 1).val; omega

/-- An index of the array is in point t's block iff each coordinate is in the block's range on its axis. -/
theorem mem_blk2 (t : Fin cfg2.N) (i : S8192x8192.Idx) :
    i ∈ ((cfg2.win 5).blk t).view.set ↔ ∀ a : Fin 2, win2_5.index t a * S2048x1024.size a ≤ (i a).val ∧ (i a).val < win2_5.index t a * S2048x1024.size a + S2048x1024.size a := by
  show i ∈ ((View.whole main_v41).slice (win2_5.rect t)).set ↔ _
  rw [View.set_slice_whole, Rect.mem_set_unit]
  exact Iff.rfl

/-- Entry (p, q) of the array is written by the point with coordinates (p / 2048, q / 1024). -/
theorem cover2 (i : S8192x8192.Idx) : ∃ t : Fin cfg2.N, (cfg2.win 5).flush t = true ∧ i ∈ ((cfg2.win 5).blk t).view.set := by
  have hi0 : (i 0).val < 8192 := (i 0).isLt
  have hi1 : (i 1).val < 8192 := (i 1).isLt
  have hN : cfg2.N = 32 := N_2
  let t : Fin cfg2.N := ⟨(i 0).val / 2048 * 8 + (i 1).val / 1024, by rw [hN]; omega⟩
  have ht : t.val = (i 0).val / 2048 * 8 + (i 1).val / 1024 := rfl
  obtain ⟨-, -, -, -, -, -, -, -, -, -, e0, e1⟩ := idx_facts2 t
  refine ⟨t, flush2_5 t, ?_⟩
  rw [mem_blk2]
  intro a
  match a with
  | ⟨0, _⟩ => show win2_5.index t (0 : Fin 2) * 2048 ≤ (i 0).val ∧ (i 0).val < win2_5.index t (0 : Fin 2) * 2048 + 2048; omega
  | ⟨1, _⟩ => show win2_5.index t (1 : Fin 2) * 1024 ≤ (i 1).val ∧ (i 1).val < win2_5.index t (1 : Fin 2) * 1024 + 1024; omega

/-- The output array after call 2's last point. -/
theorem final2 (c : Dev nD) : (dat2 (F := Ideal) V c).arrAt 5 cfg2.N = G2 V c :=
  (dat2 V c).arrAt_eq_of_cover 5 (G2 V c) (fun t _ => flushed2_eq V c t) cover2

theorem val2 (c : Dev nD) (p q : Fin 8192) :
    (dat2 (F := Ideal) V c).arrAt 5 cfg2.N (ValueIdx.ix2 p q) = Cert.Gcn.dec (V c main_v39) (V c main_v16) (V c main_v40) p q := by
  rw [final2]
  rfl

end Cert.KernelIdeal.Hand

end
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.RefStages.lean ====
/-
  The reference's three dense stages, entry by entry. Each stage is the reference's own chain of host operations,
  applied here to arbitrary arrays, and at every index it is the function of Spec of the same arrays.
-/
import proofs.«100454_j32100585570938_2_alg».proof.Proof.Gen.ReferenceIdeal.Read
import proofs.«100454_j32100585570938_2_alg».proof.Proof.Spec
import proofs.«100454_j32100585570938_2_alg».proof.Proof.LibDot
import proofs.«100454_j32100585570938_2_alg».proof.Proof.LibHostRead
import Idealize.ShloMosaic.Lib.IdealHost

noncomputable section

namespace Cert.RefStages

open Cert.ReferenceIdeal Cert.ReferenceIdeal.Gen Idealize.ShloMosaic Idealize.ShloMosaic.ValueIdx
open scoped BigOperators

/-! ## Layer 1: the product of x and w, each row scaled by a column -/

/-- Entry (p, q) of the scaled product is (Σ_k x(p,k)·w(k,q)) · sc(p). -/
theorem ref1 (x : FVec Ideal S8192x512 .f32) (w : FVec Ideal S512x256 .f32) (sc : FVec Ideal S8192x1 .f32)
    (p : Fin 8192) (q : Fin 256) :
    mulf (Host.dotGeneral dot_S8192x512_S512x256_S8192x256_1_0_0_1_n_n none x w)
        (broadcastInDim S8192x256 ![0, 1] bcast_S8192x1_S8192x256_0_1 sc) (ix2 p q)
      = Cert.Gcn.lin1 x w sc p q := by
  show Host.dotGeneral (Cert.LibDot.dims dot_S8192x512_S512x256_S8192x256_1_0_0_1_n_n_wf) none x w (ix2 p q)
      * broadcastInDim S8192x256 ![0, 1] bcast_S8192x1_S8192x256_0_1 sc (ix2 p q) = _
  rw [Cert.LibDot.dotGeneral_apply, Cert.LibHostRead.bcast_a1_ab_apply]
  rfl

/-! ## Layer 2: the hidden layer's product with w, each row scaled by a column -/

/-- The reference's hidden layer: a scaled row by row by the column tc, the row br added, the zero word as floor. -/
def hidOps (a : FVec Ideal S8192x256 .f32) (tc : FVec Ideal S8192x1 .f32) (br : FVec Ideal S1x256 .f32) :
    FVec Ideal S8192x256 .f32 :=
  maximumf (addf (mulf a (broadcastInDim S8192x256 ![0, 1] bcast_S8192x1_S8192x256_0_1 tc))
      (broadcastInDim S8192x256 ![0, 1] bcast_S1x256_S8192x256_0_1 br))
    (broadcastInDim S8192x256 ![] bcast_S_S8192x256 (constant (F := Ideal) S_ .f32 0x00000000#32))

theorem hidOps_apply (a : FVec Ideal S8192x256 .f32) (tc : FVec Ideal S8192x1 .f32) (br : FVec Ideal S1x256 .f32)
    (p : Fin 8192) (k : Fin 256) : hidOps a tc br (ix2 p k) = Cert.Gcn.hid a tc br p k := by
  show max (a (ix2 p k) * broadcastInDim S8192x256 ![0, 1] bcast_S8192x1_S8192x256_0_1 tc (ix2 p k)
      + broadcastInDim S8192x256 ![0, 1] bcast_S1x256_S8192x256_0_1 br (ix2 p k)) (Ideal.ofBits .f32 0x00000000#32) = _
  rw [Cert.LibHostRead.bcast_a1_ab_apply, Cert.LibHostRead.bcast_1b_ab_apply]
  rfl

/-- Entry (p, q) of the second scaled product is (Σ_k hid(p,k)·w(k,q)) · sc(p). -/
theorem ref2 (a : FVec Ideal S8192x256 .f32) (tc : FVec Ideal S8192x1 .f32) (br : FVec Ideal S1x256 .f32)
    (w : FVec Ideal S256x64 .f32) (sc : FVec Ideal S8192x1 .f32) (p : Fin 8192) (q : Fin 64) :
    mulf (Host.dotGeneral dot_S8192x256_S256x64_S8192x64_1_0_0_1_n_n none (hidOps a tc br) w)
        (broadcastInDim S8192x64 ![0, 1] bcast_S8192x1_S8192x64_0_1 sc) (ix2 p q)
      = Cert.Gcn.lin2 a tc br w sc p q := by
  show Host.dotGeneral (Cert.LibDot.dims dot_S8192x256_S256x64_S8192x64_1_0_0_1_n_n_wf) none (hidOps a tc br) w (ix2 p q)
      * broadcastInDim S8192x64 ![0, 1] bcast_S8192x1_S8192x64_0_1 sc (ix2 p q) = _
  rw [Cert.LibDot.dotGeneral_apply, Cert.LibHostRead.bcast_a1_ab_apply]
  unfold Cert.Gcn.lin2
  refine congrArg (· * sc (ix2 p (0 : Fin 1))) (Finset.sum_congr rfl fun k _ => ?_)
  rw [hidOps_apply]

/-! ## The decoder: the logistic function of the embedding's Gram matrix -/

/-- The reference's embedding: a scaled row by row by the column tc, the row br added. -/
def embOps (a : FVec Ideal S8192x64 .f32) (tc : FVec Ideal S8192x1 .f32) (br : FVec Ideal S1x64 .f32) :
    FVec Ideal S8192x64 .f32 :=
  addf (mulf a (broadcastInDim S8192x64 ![0, 1] bcast_S8192x1_S8192x64_0_1 tc))
    (broadcastInDim S8192x64 ![0, 1] bcast_S1x64_S8192x64_0_1 br)

theorem embOps_apply (a : FVec Ideal S8192x64 .f32) (tc : FVec Ideal S8192x1 .f32) (br : FVec Ideal S1x64 .f32)
    (p : Fin 8192) (k : Fin 64) : embOps a tc br (ix2 p k) = Cert.Gcn.emb a tc br p k := by
  show a (ix2 p k) * broadcastInDim S8192x64 ![0, 1] bcast_S8192x1_S8192x64_0_1 tc (ix2 p k)
      + broadcastInDim S8192x64 ![0, 1] bcast_S1x64_S8192x64_0_1 br (ix2 p k) = _
  rw [Cert.LibHostRead.bcast_a1_ab_apply, Cert.LibHostRead.bcast_1b_ab_apply]
  rfl

/-- The transposed matrix at (k, q) is the matrix at (q, k). -/
theorem transpose_ix2 (z : FVec Ideal S8192x64 .f32) (k : Fin 64) (q : Fin 8192) :
    transpose S64x8192 [1, 0] z transposes_S8192x64_S64x8192_1_0 (ix2 k q) = z (ix2 q k) :=
  transpose_apply [1, 0] z transposes_S8192x64_S64x8192_1_0 (ix2 k q) (ix2 q k) (fun b => match b with
    | ⟨0, _⟩ => rfl
    | ⟨1, _⟩ => rfl)

/-- Entry (p, q) of the decoder is the logistic function of the inner product of rows p and q of the embedding. -/
theorem ref3 (z : FVec Ideal S8192x64 .f32) (p q : Fin 8192) :
    Host.divf (broadcastInDim S8192x8192 ![] bcast_S_S8192x8192 (constant (F := Ideal) S_ .f32 0x3F800000#32))
        (addf (broadcastInDim S8192x8192 ![] bcast_S_S8192x8192 (constant (F := Ideal) S_ .f32 0x3F800000#32))
          (Host.exp (Host.negf (Host.dotGeneral dot_S8192x64_S64x8192_S8192x8192_1_0_0_1_n_n none z
            (transpose S64x8192 [1, 0] z transposes_S8192x64_S64x8192_1_0))))) (ix2 p q)
      = Ideal.logistic (∑ k : Fin 64, z (ix2 p k) * z (ix2 q k)) := by
  show Ideal.div (Ideal.ofBits .f32 0x3F800000#32) (Ideal.ofBits .f32 0x3F800000#32
      + Ideal.exp (-(Host.dotGeneral (Cert.LibDot.dims dot_S8192x64_S64x8192_S8192x8192_1_0_0_1_n_n_wf) none z
          (transpose S64x8192 [1, 0] z transposes_S8192x64_S64x8192_1_0) (ix2 p q)))) = _
  rw [Ideal.ofBits_one_f32, Cert.LibDot.dotGeneral_apply]
  unfold Ideal.logistic
  refine congrArg (fun s => Ideal.div 1 (1 + Ideal.exp (-s))) (Finset.sum_congr rfl fun k _ => ?_)
  rw [transpose_ix2]

/-- The decoder over the reference's own embedding, in Spec's terms. -/
theorem ref3' (a : FVec Ideal S8192x64 .f32) (tc : FVec Ideal S8192x1 .f32) (br : FVec Ideal S1x64 .f32) (p q : Fin 8192) :
    Host.divf (broadcastInDim S8192x8192 ![] bcast_S_S8192x8192 (constant (F := Ideal) S_ .f32 0x3F800000#32))
        (addf (broadcastInDim S8192x8192 ![] bcast_S_S8192x8192 (constant (F := Ideal) S_ .f32 0x3F800000#32))
          (Host.exp (Host.negf (Host.dotGeneral dot_S8192x64_S64x8192_S8192x8192_1_0_0_1_n_n none (embOps a tc br)
            (transpose S64x8192 [1, 0] (embOps a tc br) transposes_S8192x64_S64x8192_1_0))))) (ix2 p q)
      = Cert.Gcn.dec a tc br p q := by
  rw [ref3]
  unfold Cert.Gcn.dec
  refine congrArg Ideal.logistic (Finset.sum_congr rfl fun k _ => ?_)
  rw [embOps_apply, embOps_apply]

/-! ## The stages inside the reference's run -/

section Run
variable (x0 : FVec Ideal S8192x512 .f32) (x1 x2 : IVec S262144 32) (x3 : FVec Ideal S512x256 .f32)
  (x4 : FVec Ideal S256 .f32) (x5 : FVec Ideal S256x64 .f32) (x6 : FVec Ideal S64 .f32)

open Cert.ReferenceIdeal.Read

/-- The reference's first scaled product, in Spec's terms. -/
theorem val18_apply (p : Fin 8192) (q : Fin 256) :
    val_main_v18 (F := Ideal) x0 x1 x3 (ix2 p q) = Cert.Gcn.lin1 x0 x3 (val_main_v16 (F := Ideal) x1) p q :=
  ref1 x0 x3 (val_main_v16 (F := Ideal) x1) p q

/-- The reference's second scaled product, in Spec's terms, over the first aggregation. -/
theorem val39_apply (p : Fin 8192) (q : Fin 64) :
    val_main_v39 (F := Ideal) x0 x1 x2 x3 x4 x5 (ix2 p q)
      = Cert.Gcn.lin2 (val_main_v28 (F := Ideal) x0 x1 x2 x3) (val_main_v29 (F := Ideal) x2) (val_main_v32 (F := Ideal) x4) x5
          (val_main_v37 (F := Ideal) x1) p q :=
  ref2 (val_main_v28 (F := Ideal) x0 x1 x2 x3) (val_main_v29 (F := Ideal) x2) (val_main_v32 (F := Ideal) x4) x5
    (val_main_v37 (F := Ideal) x1) p q

/-- The reference's result, in Spec's terms, over the second aggregation. -/
theorem val63_apply (p q : Fin 8192) :
    val_main_v63 (F := Ideal) x0 x1 x2 x3 x4 x5 x6 (ix2 p q)
      = Cert.Gcn.dec (val_main_v49 (F := Ideal) x0 x1 x2 x3 x4 x5) (val_main_v50 (F := Ideal) x2) (val_main_v53 (F := Ideal) x6) p q :=
  ref3' (val_main_v49 (F := Ideal) x0 x1 x2 x3 x4 x5) (val_main_v50 (F := Ideal) x2) (val_main_v53 (F := Ideal) x6) p q

end Run

end Cert.RefStages

end
-- ==== Proof.LibRow.lean ====
/-
  A vector laid out as a one-row matrix. Reshaping a length-n vector to shape 1×n and broadcasting it along a new
  leading axis of extent 1 are the same array: entry (0, q) is entry q of the vector.
-/
import Idealize.ShloMosaic.Lib.Pipeline.Value
import Idealize.ShloMosaic.Lib.ValueIdx

noncomputable section

namespace Cert.LibRow

open Idealize.ShloMosaic Idealize.ShloMosaic.ValueIdx

/-- The row-major reshape of a vector to one row is its broadcast along a new leading unit axis. -/
theorem reshape_row_eq_broadcast {n : Nat} {α : Type} (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, q, rfl⟩ : ∃ (z : Fin 1) (q : Fin n), j = ix2 z q := ⟨j 0, j 1, eq_ix2 j⟩
  have hq := q.isLt
  have hz := z.isLt
  rw [shapeCast_apply x h (ix2 z q) (ix1 q) (by
    rw [Shape.rowMajor_val_one, Shape.rowMajor_val_two]
    show q.val = z.val * n + q.val
    have : z.val = 0 := by omega
    rw [this]; omega)]
  exact (broadcastInDim_apply ![1] h' x (ix2 z q) (ix1 q) (fun a => by
    match a with
    | ⟨0, _⟩ => show q.val = if n = 1 then 0 else q.val; split <;> omega)).symm

end Cert.LibRow
-- ==== Proof.Assemble.lean ====
/-
  The two programs end with equal results. The kernel program's buffers are followed through its six segments: each
  host stretch is the reference's own operations on the same arrays, each call's output is the Spec function the
  reference's stage is, and the aggregations along the edges are the same gather and scatter on both sides.
-/
import proofs.«100454_j32100585570938_2_alg».proof.Proof.KI.Fold
import proofs.«100454_j32100585570938_2_alg».proof.Proof.KI.Val0
import proofs.«100454_j32100585570938_2_alg».proof.Proof.KI.Val1
import proofs.«100454_j32100585570938_2_alg».proof.Proof.KI.Val2
import proofs.«100454_j32100585570938_2_alg».proof.Proof.RefStages
import proofs.«100454_j32100585570938_2_alg».proof.Proof.LibRow

set_option maxRecDepth 16384

noncomputable section

namespace Cert.Assemble

open Idealize.ShloMosaic Idealize.ShloMosaic.TcCoe Idealize.ShloMosaic.ValueIdx Idealize.SL.Sem
open Cert.KernelIdeal Cert.KernelIdeal.Gen Cert.KernelIdeal.Hand

/-! ## A vector laid out as a column -/

/-- The row-major reshape of a vector to one column is its broadcast along a new trailing unit axis. -/
theorem reshape_col_eq_broadcast {n : Nat} {α : Type} (x : (⟨1, ![n]⟩ : Shape).Idx → α)
    (h : (⟨1, ![n]⟩ : Shape).ShapeCasts ⟨2, ![n, 1]⟩)
    (h' : (⟨1, ![n]⟩ : Shape).BroadcastsInDim ⟨2, ![n, 1]⟩ (![0] : Fin 1 → Fin 2)) :
    shapeCast ⟨2, ![n, 1]⟩ x h = broadcastInDim ⟨2, ![n, 1]⟩ ![0] h' x := by
  funext j
  obtain ⟨r, z, rfl⟩ : ∃ (r : Fin n) (z : Fin 1), j = ix2 r z := ⟨j 0, j 1, eq_ix2 j⟩
  have hz := z.isLt
  rw [shapeCast_apply x h (ix2 r z) (ix1 r) (by
    rw [Shape.rowMajor_val_one, Shape.rowMajor_val_two]
    show r.val = r.val * 1 + z.val
    omega)]
  exact (Cert.LibHostRead.bcast_a_a1_apply x h' r z).symm

/-! ## Buffers that a segment leaves alone -/

section Fold
variable (m : (ℓ : Loc nD τ sig) → Buf (Elt Ideal) ℓ) (c : Dev nD)

theorem W1_kept (b : Ref sig .tc) (h0 : b ∉ hostOps0_W) :
    W1 (F := Ideal) m c (Proc.devRef .tc b) = m ((c : Thread nD τ).loc b) :=
  StableHlo.after_of_writes_sub hostOps0 _ hostOps0_writes h0
theorem W2_kept (b : Ref sig .tc) (h0 : b ∉ hostOps0_W) (n17 : b ≠ main_v17) :
    W2 (F := Ideal) m c (Proc.devRef .tc b) = m ((c : Thread nD τ).loc b) :=
  (W2_of_ne m c b n17).trans (W1_kept m c b h0)
theorem W3_W2 (b : Ref sig .tc) (h1 : b ∉ hostOps1_W) :
    W3 (F := Ideal) m c (Proc.devRef .tc b) = W2 (F := Ideal) m c (Proc.devRef .tc b) :=
  StableHlo.after_of_writes_sub hostOps1 _ hostOps1_writes h1
theorem W3_kept (b : Ref sig .tc) (h0 : b ∉ hostOps0_W) (h1 : b ∉ hostOps1_W) (n17 : b ≠ main_v17) :
    W3 (F := Ideal) m c (Proc.devRef .tc b) = m ((c : Thread nD τ).loc b) :=
  (W3_W2 m c b h1).trans (W2_kept m c b h0 n17)
theorem W4_kept (b : Ref sig .tc) (h0 : b ∉ hostOps0_W) (h1 : b ∉ hostOps1_W) (n17 : b ≠ main_v17) (n29 : b ≠ main_v29) :
    W4 (F := Ideal) m c (Proc.devRef .tc b) = m ((c : Thread nD τ).loc b) :=
  (W4_of_ne m c b n29).trans (W3_kept m c b h0 h1 n17)
theorem W5_W4 (b : Ref sig .tc) (h2 : b ∉ hostOps2_W) :
    W5 (F := Ideal) m c (Proc.devRef .tc b) = W4 (F := Ideal) m c (Proc.devRef .tc b) :=
  StableHlo.after_of_writes_sub hostOps2 _ hostOps2_writes h2
theorem W5_kept (b : Ref sig .tc) (h0 : b ∉ hostOps0_W) (h1 : b ∉ hostOps1_W) (h2 : b ∉ hostOps2_W) (n17 : b ≠ main_v17)
    (n29 : b ≠ main_v29) : W5 (F := Ideal) m c (Proc.devRef .tc b) = m ((c : Thread nD τ).loc b) :=
  (W5_W4 m c b h2).trans (W4_kept m c b h0 h1 n17 n29)

/-- A buffer the first host stretch wrote and nothing after it writes is still as that stretch left it at call 1's entry. -/
theorem W3_W1 (b : Ref sig .tc) (h1 : b ∉ hostOps1_W) (n17 : b ≠ main_v17) :
    W3 (F := Ideal) m c (Proc.devRef .tc b) = W1 (F := Ideal) m c (Proc.devRef .tc b) :=
  (W3_W2 m c b h1).trans (W2_of_ne m c b n17)
/-- And at call 2's entry. -/
theorem W5_W1 (b : Ref sig .tc) (h1 : b ∉ hostOps1_W) (h2 : b ∉ hostOps2_W) (n17 : b ≠ main_v17) (n29 : b ≠ main_v29) :
    W5 (F := Ideal) m c (Proc.devRef .tc b) = W1 (F := Ideal) m c (Proc.devRef .tc b) :=
  ((W5_W4 m c b h2).trans (W4_of_ne m c b n29)).trans (W3_W1 m c b h1 n17)

/-! ## The host stretches: the reference's own operations -/

/-- The out-degree column call 0 and call 1 read is the reference's out-degree factor, as a column. -/
theorem W1_v15 :
    (W1 (F := Ideal) m c (Proc.devRef .tc main_v15) : S8192x1.Idx → EReal)
      = Cert.ReferenceIdeal.Read.val_main_v16 (F := Ideal) (m ((c.tc : Thread nD τ).loc main_arg1)) := by
  have e : (W1 (F := Ideal) m c (Proc.devRef .tc main_v15) : S8192x1.Idx → EReal)
      = shapeCast S8192x1 (Cert.ReferenceIdeal.Read.val_main_v10 (F := Ideal) (m ((c.tc : Thread nD τ).loc main_arg1)))
          shapeCasts_S8192_S8192x1 := by
    show StableHlo.after hostOps0 (W0 m c) (Proc.devRef .tc main_v15) = _
    after_results
    rfl
  rw [e]
  exact reshape_col_eq_broadcast _ _ _

/-- The in-degree column call 1 and call 2 read is the reference's in-degree factor, as a column. -/
theorem W1_v16 :
    (W1 (F := Ideal) m c (Proc.devRef .tc main_v16) : S8192x1.Idx → EReal)
      = Cert.ReferenceIdeal.Read.val_main_v29 (F := Ideal) (m ((c.tc : Thread nD τ).loc main_arg2)) := by
  have e : (W1 (F := Ideal) m c (Proc.devRef .tc main_v16) : S8192x1.Idx → EReal)
      = shapeCast S8192x1 (Cert.ReferenceIdeal.Read.val_main_v14 (F := Ideal) (m ((c.tc : Thread nD τ).loc main_arg2)))
          shapeCasts_S8192_S8192x1 := by
    show StableHlo.after hostOps0 (W0 m c) (Proc.devRef .tc main_v16) = _
    after_results
    rfl
  rw [e]
  exact reshape_col_eq_broadcast _ _ _

/-- The first aggregation along the edges, as the reference spells it, of any array. -/
def agg1 (x1 x2 : IVec Cert.ReferenceIdeal.S262144 32) (y : FVec Ideal Cert.ReferenceIdeal.S8192x256 .f32) :
    FVec Ideal Cert.ReferenceIdeal.S8192x256 .f32 :=
  Host.scatterAdd Cert.ReferenceIdeal.scatter_S8192x256_S262144x1_S262144x256_1_0_0_1
    (Cert.ReferenceIdeal.Read.val_main_v26 (F := Ideal)) (Cert.ReferenceIdeal.Read.val_main_v27 (F := Ideal) x2)
    (Host.gather Cert.ReferenceIdeal.gather_S8192x256_S262144x1_S262144x256_1_0_n_n_0_1_1256 y
      (Cert.ReferenceIdeal.Read.val_main_v24 (F := Ideal) x1))

/-- The second aggregation. -/
def agg2 (x1 x2 : IVec Cert.ReferenceIdeal.S262144 32) (y : FVec Ideal Cert.ReferenceIdeal.S8192x64 .f32) :
    FVec Ideal Cert.ReferenceIdeal.S8192x64 .f32 :=
  Host.scatterAdd Cert.ReferenceIdeal.scatter_S8192x64_S262144x1_S262144x64_1_0_0_1
    (Cert.ReferenceIdeal.Read.val_main_v47 (F := Ideal)) (Cert.ReferenceIdeal.Read.val_main_v48 (F := Ideal) x2)
    (Host.gather Cert.ReferenceIdeal.gather_S8192x64_S262144x1_S262144x64_1_0_n_n_0_1_164 y
      (Cert.ReferenceIdeal.Read.val_main_v45 (F := Ideal) x1))

/-- Call 1's aggregated input is the first aggregation of call 0's output. -/
theorem W3_v27 :
    (W3 (F := Ideal) m c (Proc.devRef .tc main_v27) : S8192x256.Idx → EReal)
      = agg1 (W2 (F := Ideal) m c (Proc.devRef .tc main_arg1)) (W2 (F := Ideal) m c (Proc.devRef .tc main_arg2))
          (W2 (F := Ideal) m c (Proc.devRef .tc main_v17)) := by
  show StableHlo.after hostOps1 (W2 m c) (Proc.devRef .tc main_v27) = _
  after_results
  rfl

/-- Call 1's bias row is the reference's. -/
theorem W3_v28 :
    (W3 (F := Ideal) m c (Proc.devRef .tc main_v28) : S1x256.Idx → EReal)
      = Cert.ReferenceIdeal.Read.val_main_v32 (F := Ideal) (W2 (F := Ideal) m c (Proc.devRef .tc main_arg4)) := by
  have e : (W3 (F := Ideal) m c (Proc.devRef .tc main_v28) : S1x256.Idx → EReal)
      = shapeCast S1x256 (W2 (F := Ideal) m c (Proc.devRef .tc main_arg4)) shapeCasts_S256_S1x256 := by
    show StableHlo.after hostOps1 (W2 m c) (Proc.devRef .tc main_v28) = _
    after_results
    rfl
  rw [e]
  exact Cert.LibRow.reshape_row_eq_broadcast _ _ _

/-- Call 2's aggregated input is the second aggregation of call 1's output. -/
theorem W5_v39 :
    (W5 (F := Ideal) m c (Proc.devRef .tc main_v39) : S8192x64.Idx → EReal)
      = agg2 (W4 (F := Ideal) m c (Proc.devRef .tc main_arg1)) (W4 (F := Ideal) m c (Proc.devRef .tc main_arg2))
          (W4 (F := Ideal) m c (Proc.devRef .tc main_v29)) := by
  show StableHlo.after hostOps2 (W4 m c) (Proc.devRef .tc main_v39) = _
  after_results
  rfl

/-- Call 2's bias row is the reference's. -/
theorem W5_v40 :
    (W5 (F := Ideal) m c (Proc.devRef .tc main_v40) : S1x64.Idx → EReal)
      = Cert.ReferenceIdeal.Read.val_main_v53 (F := Ideal) (W4 (F := Ideal) m c (Proc.devRef .tc main_arg6)) := by
  have e : (W5 (F := Ideal) m c (Proc.devRef .tc main_v40) : S1x64.Idx → EReal)
      = shapeCast S1x64 (W4 (F := Ideal) m c (Proc.devRef .tc main_arg6)) shapeCasts_S64_S1x64 := by
    show StableHlo.after hostOps2 (W4 m c) (Proc.devRef .tc main_v40) = _
    after_results
    rfl
  rw [e]
  exact Cert.LibRow.reshape_row_eq_broadcast _ _ _

end Fold

/-! ## Spec's functions respect equal arrays -/

theorem lin1_congr {x x' : (⟨2, ![8192, 512]⟩ : Shape).Idx → EReal} {w w' : (⟨2, ![512, 256]⟩ : Shape).Idx → EReal}
    {s s' : (⟨2, ![8192, 1]⟩ : Shape).Idx → EReal} (hx : x = x') (hw : w = w') (hs : s = s') (p : Fin 8192) (q : Fin 256) :
    Cert.Gcn.lin1 x w s p q = Cert.Gcn.lin1 x' w' s' p q := by rw [hx, hw, hs]

theorem lin2_congr {a a' : (⟨2, ![8192, 256]⟩ : Shape).Idx → EReal} {t t' : (⟨2, ![8192, 1]⟩ : Shape).Idx → EReal}
    {b b' : (⟨2, ![1, 256]⟩ : Shape).Idx → EReal} {w w' : (⟨2, ![256, 64]⟩ : Shape).Idx → EReal}
    {s s' : (⟨2, ![8192, 1]⟩ : Shape).Idx → EReal} (ha : a = a') (ht : t = t') (hb : b = b') (hw : w = w') (hs : s = s')
    (p : Fin 8192) (q : Fin 64) : Cert.Gcn.lin2 a t b w s p q = Cert.Gcn.lin2 a' t' b' w' s' p q := by rw [ha, ht, hb, hw, hs]

theorem dec_congr {a a' : (⟨2, ![8192, 64]⟩ : Shape).Idx → EReal} {t t' : (⟨2, ![8192, 1]⟩ : Shape).Idx → EReal}
    {b b' : (⟨2, ![1, 64]⟩ : Shape).Idx → EReal} (ha : a = a') (ht : t = t') (hb : b = b') (p q : Fin 8192) :
    Cert.Gcn.dec a t b p q = Cert.Gcn.dec a' t' b' p q := by rw [ha, ht, hb]

/-! ## The chain: each call's output and each aggregation is the reference's -/

section Chain
variable (m : (ℓ : Loc nD τ sig) → Buf (Elt Ideal) ℓ) (c : Dev nD)
variable (hval0 : ∀ (V : (c : Dev nD) → (b : Ref sig .tc) → Buf (Elt Ideal) ((c : Thread nD τ).loc b)) (c : Dev nD) (p : Fin 8192) (q : Fin 256),
    (dat0 (F := Ideal) V c).arrAt 3 cfg0.N (ValueIdx.ix2 p q) = Cert.Gcn.lin1 (V c main_arg0) (V c main_arg3) (V c main_v15) p q)
variable (hval1 : ∀ (V : (c : Dev nD) → (b : Ref sig .tc) → Buf (Elt Ideal) ((c : Thread nD τ).loc b)) (c : Dev nD) (p : Fin 8192) (q : Fin 64),
    (dat1 (F := Ideal) V c).arrAt 5 cfg1.N (ValueIdx.ix2 p q)
      = Cert.Gcn.lin2 (V c main_v27) (V c main_v16) (V c main_v28) (V c main_arg5) (V c main_v15) p q)
variable (hval2 : ∀ (V : (c : Dev nD) → (b : Ref sig .tc) → Buf (Elt Ideal) ((c : Thread nD τ).loc b)) (c : Dev nD) (p q : Fin 8192),
    (dat2 (F := Ideal) V c).arrAt 5 cfg2.N (ValueIdx.ix2 p q) = Cert.Gcn.dec (V c main_v39) (V c main_v16) (V c main_v40) p q)

include hval0 in
/-- Call 0's output is the reference's first scaled product. -/
theorem W2_v17 :
    (W2 (F := Ideal) m c (Proc.devRef .tc main_v17) : S8192x256.Idx → EReal)
      = Cert.ReferenceIdeal.Read.val_main_v18 (F := Ideal) (m ((c.tc : Thread nD τ).loc main_arg0))
          (m ((c.tc : Thread nD τ).loc main_arg1)) (m ((c.tc : Thread nD τ).loc main_arg3)) := by
  funext j
  obtain ⟨p, q, rfl⟩ : ∃ (p : Fin 8192) (q : Fin 256), j = ix2 p q := ⟨j 0, j 1, eq_ix2 j⟩
  rw [Cert.RefStages.val18_apply]
  refine ((congrFun (W2_out m c) (ix2 p q)).trans (hval0 (V1 m) c p q)).trans ?_
  exact lin1_congr (W1_kept m c main_arg0 (by decide)) (W1_kept m c main_arg3 (by decide)) (W1_v15 m c) p q

include hval0 in
/-- Call 1's aggregated input is the reference's first aggregation. -/
theorem W3_v27' :
    (W3 (F := Ideal) m c (Proc.devRef .tc main_v27) : S8192x256.Idx → EReal)
      = Cert.ReferenceIdeal.Read.val_main_v28 (F := Ideal) (m ((c.tc : Thread nD τ).loc main_arg0))
          (m ((c.tc : Thread nD τ).loc main_arg1)) (m ((c.tc : Thread nD τ).loc main_arg2)) (m ((c.tc : Thread nD τ).loc main_arg3)) := by
  rw [W3_v27, W2_kept m c main_arg1 (by decide) (by decide), W2_kept m c main_arg2 (by decide) (by decide), W2_v17 m c hval0]
  rfl

end Chain

section Chain2
variable (m : (ℓ : Loc nD τ sig) → Buf (Elt Ideal) ℓ) (c : Dev nD)
variable (hval0 : ∀ (V : (c : Dev nD) → (b : Ref sig .tc) → Buf (Elt Ideal) ((c : Thread nD τ).loc b)) (c : Dev nD) (p : Fin 8192) (q : Fin 256),
    (dat0 (F := Ideal) V c).arrAt 3 cfg0.N (ValueIdx.ix2 p q) = Cert.Gcn.lin1 (V c main_arg0) (V c main_arg3) (V c main_v15) p q)
variable (hval1 : ∀ (V : (c : Dev nD) → (b : Ref sig .tc) → Buf (Elt Ideal) ((c : Thread nD τ).loc b)) (c : Dev nD) (p : Fin 8192) (q : Fin 64),
    (dat1 (F := Ideal) V c).arrAt 5 cfg1.N (ValueIdx.ix2 p q)
      = Cert.Gcn.lin2 (V c main_v27) (V c main_v16) (V c main_v28) (V c main_arg5) (V c main_v15) p q)
variable (hval2 : ∀ (V : (c : Dev nD) → (b : Ref sig .tc) → Buf (Elt Ideal) ((c : Thread nD τ).loc b)) (c : Dev nD) (p q : Fin 8192),
    (dat2 (F := Ideal) V c).arrAt 5 cfg2.N (ValueIdx.ix2 p q) = Cert.Gcn.dec (V c main_v39) (V c main_v16) (V c main_v40) p q)

include hval0 hval1 in
/-- Call 1's output is the reference's second scaled product. -/
theorem W4_v29 :
    (W4 (F := Ideal) m c (Proc.devRef .tc main_v29) : S8192x64.Idx → EReal)
      = Cert.ReferenceIdeal.Read.val_main_v39 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) := by
  funext j
  obtain ⟨p, q, rfl⟩ : ∃ (p : Fin 8192) (q : Fin 64), j = ix2 p q := ⟨j 0, j 1, eq_ix2 j⟩
  rw [Cert.RefStages.val39_apply]
  refine ((congrFun (W4_out m c) (ix2 p q)).trans (hval1 (V3 m) c p q)).trans ?_
  refine lin2_congr (W3_v27' m c hval0) ((W3_W1 m c main_v16 (by decide) (by decide)).trans (W1_v16 m c)) ?_
    (W3_kept m c main_arg5 (by decide) (by decide) (by decide)) ((W3_W1 m c main_v15 (by decide) (by decide)).trans (W1_v15 m c)) p q
  rw [show V3 m c main_v28 = _ from W3_v28 m c, W2_kept m c main_arg4 (by decide) (by decide)]

include hval0 hval1 in
/-- Call 2's aggregated input is the reference's second aggregation. -/
theorem W5_v39' :
    (W5 (F := Ideal) m c (Proc.devRef .tc main_v39) : S8192x64.Idx → EReal)
      = Cert.ReferenceIdeal.Read.val_main_v49 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) := by
  rw [W5_v39, W4_kept m c main_arg1 (by decide) (by decide) (by decide) (by decide),
    W4_kept m c main_arg2 (by decide) (by decide) (by decide) (by decide), W4_v29 m c hval0 hval1]
  rfl

include hval0 hval1 hval2 in
/-- Call 2's output is the reference's result. -/
theorem W6_v41 :
    (W6 (F := Ideal) m c (Proc.devRef .tc main_v41) : S8192x8192.Idx → EReal)
      = Cert.ReferenceIdeal.Read.val_main_v63 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := by
  funext j
  obtain ⟨p, q, rfl⟩ : ∃ (p q : Fin 8192), j = ix2 p q := ⟨j 0, j 1, eq_ix2 j⟩
  rw [Cert.RefStages.val63_apply]
  refine ((congrFun (W6_out m c) (ix2 p q)).trans (hval2 (V5 m) c p q)).trans ?_
  refine dec_congr (W5_v39' m c hval0 hval1)
    ((W5_W1 m c main_v16 (by decide) (by decide) (by decide) (by decide)).trans (W1_v16 m c)) ?_ p q
  rw [show V5 m c main_v40 = _ from W5_v40 m c, W4_kept m c main_arg6 (by decide) (by decide) (by decide) (by decide)]

end Chain2

/-! ## The result -/

section Result
variable (hval0 : ∀ (V : (c : Dev nD) → (b : Ref sig .tc) → Buf (Elt Ideal) ((c : Thread nD τ).loc b)) (c : Dev nD) (p : Fin 8192) (q : Fin 256),
    (dat0 (F := Ideal) V c).arrAt 3 cfg0.N (ValueIdx.ix2 p q) = Cert.Gcn.lin1 (V c main_arg0) (V c main_arg3) (V c main_v15) p q)
variable (hval1 : ∀ (V : (c : Dev nD) → (b : Ref sig .tc) → Buf (Elt Ideal) ((c : Thread nD τ).loc b)) (c : Dev nD) (p : Fin 8192) (q : Fin 64),
    (dat1 (F := Ideal) V c).arrAt 5 cfg1.N (ValueIdx.ix2 p q)
      = Cert.Gcn.lin2 (V c main_v27) (V c main_v16) (V c main_v28) (V c main_arg5) (V c main_v15) p q)
variable (hval2 : ∀ (V : (c : Dev nD) → (b : Ref sig .tc) → Buf (Elt Ideal) ((c : Thread nD τ).loc b)) (c : Dev nD) (p q : Fin 8192),
    (dat2 (F := Ideal) V c).arrAt 5 cfg2.N (ValueIdx.ix2 p q) = Cert.Gcn.dec (V c main_v39) (V c main_v16) (V c main_v40) p q)

include hval0 hval1 hval2 in
/-- From memories that agree on the seven arguments, the kernel program's output array is the reference's result. -/
theorem result_eq_of (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.KernelIdeal.Hand.W6 (F := Ideal) m c (Proc.devRef .tc Cert.KernelIdeal.main_v41)
      = Cert.ReferenceIdeal.Value.res_main_v63 (F := Ideal) m' c := by
  obtain ⟨h0, h1, h2, h3, h4, h5, h6⟩ := hagree
  rw [Cert.ReferenceIdeal.Read.val_main_v63_eq, h0, h1, h2, h3, h4, h5, h6]
  exact W6_v41 m c hval0 hval1 hval2

end Result

/-- From memories that agree on the seven arguments, the kernel program's output array is the reference's result. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.KernelIdeal.Hand.W6 (F := Ideal) m c (Proc.devRef .tc Cert.KernelIdeal.main_v41)
      = Cert.ReferenceIdeal.Value.res_main_v63 (F := Ideal) m' c :=
  result_eq_of (fun V c p q => val0 V c p q) (fun V c p q => val1 V c p q) (fun V c p q => val2 V c p q) m m' c hagree

end Cert.Assemble

end
-- ==== Proof.lean ====
/-
  A two-layer graph convolution with an inner-product decoder, computed by three pipelined calls with the aggregation
  along the edges done on the host between them, against the same network written with plain array operations.

  Both programs compute the degree factors, the two aggregations and the bias rows by the same host operations; they
  differ only in how a layer's dense part is carried out. Each call computes a band (or a tile) of rows of its layer:
  call 0 the rows of (x·W₁) scaled by the out-degree factor, call 1 the rows of (max(A₁·t + b₁, 0)·W₂) scaled the same
  way, call 2 the tiles of the logistic function of Z·Zᵀ with Z = A₂·t + b₂. Read on the extended reals a change of
  float format is the identity, a product accumulated from zero is the plain sum over the contracted index, and the
  logistic operation is 1/(1 + e⁻ˣ) by definition; the bands and tiles cover their arrays, so each call's output array
  is, entry by entry, the reference's value for that layer. No law that needs finite entries is used.

  The frames: each program is run as six segments (host stretch, call, host stretch, call, host stretch, call) over the
  contents of every unscoped buffer, folded from the launch memory; no segment writes an argument.
-/
import proofs.«100454_j32100585570938_2_alg».proof.Defs
import proofs.«100454_j32100585570938_2_alg».proof.Proof.Gen.Kernel
import proofs.«100454_j32100585570938_2_alg».proof.Proof.Gen.KernelIdeal
import proofs.«100454_j32100585570938_2_alg».proof.Proof.Gen.ReferenceIdeal
import proofs.«100454_j32100585570938_2_alg».proof.Proof.Gen.Pre_finite_inputs
import proofs.«100454_j32100585570938_2_alg».proof.Proof.Gen.ReferenceIdeal.Run
import proofs.«100454_j32100585570938_2_alg».proof.Proof.K.Run
import proofs.«100454_j32100585570938_2_alg».proof.Proof.KI.Run
import proofs.«100454_j32100585570938_2_alg».proof.Proof.Assemble
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : @Cert.frame_Kernel Cert.Kernel.Gen.facts Cert.Pre_finite_inputs.Gen.facts := fun m ρ _ =>
  (θ_run Cert.Kernel.defs _ _).mono (fun _ h c => (h c).2) (Cert.Kernel.Hand.run (F := Bits) m ρ)

/-- So does the idealized program. -/
theorem frame_ki : @Cert.frame_KernelIdeal Cert.KernelIdeal.Gen.facts Cert.Pre_finite_inputs.Gen.facts := fun m ρ _ =>
  (θ_run Cert.KernelIdeal.defs _ _).mono (fun _ h c => (h c).2) (Cert.KernelIdeal.Hand.run (F := Ideal) m ρ)

/-- The reference is a straight line of host operations: its run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the idealized kernel's is
    what call 2's write-backs leave, the reference's its composed term, and the two are equal entry by entry. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.W6 (F := Ideal) m c (Proc.devRef .tc Cert.KernelIdeal.main_v41),
    Cert.KernelIdeal.Hand.run (F := Ideal) m ρ, ?_⟩
  exact (θ_run Cert.ReferenceIdeal.defs _ _).mono
    (fun _ h c => ⟨(h c).1.trans (Cert.Assemble.result_eq m m' c (hagree c)).symm, (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
